-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x1024x1024 : Shape := ⟨4, ![16, 1, 1024, 1024]⟩
abbrev S16x2x1024x1024 : Shape := ⟨4, ![16, 2, 1024, 1024]⟩
abbrev S_ : Shape := ⟨0, ![]⟩

class Facts : Prop where
  bcast_S_S16x1x1024x1024 : S_.BroadcastsInDim S16x1x1024x1024 (![] : Fin 0 → Fin S16x1x1024x1024.rank)
  reducesTo_S16x1x1024x1024_S_d0_1_2_3 : S16x1x1024x1024.ReducesTo [0, 1, 2, 3] S_
  h_S_ : 0 < S_.numel
  bcast_S_S16x2x1024x1024 : S_.BroadcastsInDim S16x2x1024x1024 (![] : Fin 0 → Fin S16x2x1024x1024.rank)
  reducesTo_S16x2x1024x1024_S_d0_1_2_3 : S16x2x1024x1024.ReducesTo [0, 1, 2, 3] S_

variable [Facts]

def fn_part1 {F : FTy → Type} [FloatOps F] (main_v13 : IVec S_ 1) (main_v16 : IVec S16x2x1024x1024 1) : IVec S_ 1 :=
  let main_c_5 : IVec S_ 1 := constantI S_ 1 1#1
  let main_v17 : IVec S_ 1 := (fun x v => Host.reduce IntOp.andi x v reducesTo_S16x2x1024x1024_S_d0_1_2_3 h_S_) main_v16 main_c_5
  let main_v18 : IVec S_ 1 := andi main_v13 main_v17
  main_v18

def fn {F : FTy → Type} [FloatOps F] (main_arg0 : FVec F S16x1x1024x1024 .f32) (main_arg1 : FVec F S16x1x1024x1024 .f32) (main_arg2 : FVec F S16x2x1024x1024 .f32) (main_arg3 : FVec F S16x2x1024x1024 .f32) : IVec S_ 1 :=
  let main_v0 : FVec F S16x1x1024x1024 .f32 := Host.absf main_arg0
  let main_cst : FVec F S_ .f32 := constant S_ .f32 0x7F800000#32
  let main_v1 : FVec F S16x1x1024x1024 .f32 := broadcastInDim S16x1x1024x1024 ![] bcast_S_S16x1x1024x1024 main_cst
  let main_v2 : IVec S16x1x1024x1024 1 := cmpf .olt main_v0 main_v1
  let main_c : IVec S_ 1 := constantI S_ 1 1#1
  let main_v3 : IVec S_ 1 := (fun x v => Host.reduce IntOp.andi x v reducesTo_S16x1x1024x1024_S_d0_1_2_3 h_S_) main_v2 main_c
  let main_v4 : FVec F S16x1x1024x1024 .f32 := Host.absf main_arg1
  let main_cst_0 : FVec F S_ .f32 := constant S_ .f32 0x7F800000#32
  let main_v5 : FVec F S16x1x1024x1024 .f32 := broadcastInDim S16x1x1024x1024 ![] bcast_S_S16x1x1024x1024 main_cst_0
  let main_v6 : IVec S16x1x1024x1024 1 := cmpf .olt main_v4 main_v5
  let main_c_1 : IVec S_ 1 := constantI S_ 1 1#1
  let main_v7 : IVec S_ 1 := (fun x v => Host.reduce IntOp.andi x v reducesTo_S16x1x1024x1024_S_d0_1_2_3 h_S_) main_v6 main_c_1
  let main_v8 : IVec S_ 1 := andi main_v3 main_v7
  let main_v9 : FVec F S16x2x1024x1024 .f32 := Host.absf main_arg2
  let main_cst_2 : FVec F S_ .f32 := constant S_ .f32 0x7F800000#32
  let main_v10 : FVec F S16x2x1024x1024 .f32 := broadcastInDim S16x2x1024x1024 ![] bcast_S_S16x2x1024x1024 main_cst_2
  let main_v11 : IVec S16x2x1024x1024 1 := cmpf .olt main_v9 main_v10
  let main_c_3 : IVec S_ 1 := constantI S_ 1 1#1
  let main_v12 : IVec S_ 1 := (fun x v => Host.reduce IntOp.andi x v reducesTo_S16x2x1024x1024_S_d0_1_2_3 h_S_) main_v11 main_c_3
  let main_v13 : IVec S_ 1 := andi main_v8 main_v12
  let main_v14 : FVec F S16x2x1024x1024 .f32 := Host.absf main_arg3
  let main_cst_4 : FVec F S_ .f32 := constant S_ .f32 0x7F800000#32
  let main_v15 : FVec F S16x2x1024x1024 .f32 := broadcastInDim S16x2x1024x1024 ![] bcast_S_S16x2x1024x1024 main_cst_4
  let main_v16 : IVec S16x2x1024x1024 1 := cmpf .olt main_v14 main_v15
  fn_part1 (F := F) main_v13 main_v16
-- ==== Kernel.lean ====
abbrev S16x1x1024x1024 : Shape := ⟨4, ![16, 1, 1024, 1024]⟩
abbrev S16x2x1024x1024 : Shape := ⟨4, ![16, 2, 1024, 1024]⟩
abbrev S1x2 : Shape := ⟨2, ![1, 2]⟩
abbrev S1x1x256x1024 : Shape := ⟨4, ![1, 1, 256, 1024]⟩
abbrev S1x2x256x1024 : Shape := ⟨4, ![1, 2, 256, 1024]⟩
abbrev S1x1 : Shape := ⟨2, ![1, 1]⟩
abbrev S1x256x1024 : Shape := ⟨3, ![1, 256, 1024]⟩
abbrev S1x1x1x256x1024 : Shape := ⟨5, ![1, 1, 1, 256, 1024]⟩
abbrev S1 : Shape := ⟨1, ![1]⟩
abbrev S1x1x1x1x1 : Shape := ⟨5, ![1, 1, 1, 1, 1]⟩
abbrev S_ : Shape := ⟨0, ![]⟩

abbrev nBuf : Space → Nat
  | .hbm => 12
  | .vmem => 11
  | .smem => 0
  | _ => 0

abbrev bufTy : (tb : Table) → Fin (tcTables nBuf tb) → BufTy
  | .hbm, ⟨0, _⟩ => ⟨S16x1x1024x1024, .f32⟩
  | .hbm, ⟨1, _⟩ => ⟨S16x1x1024x1024, .f32⟩
  | .hbm, ⟨2, _⟩ => ⟨S16x2x1024x1024, .f32⟩
  | .hbm, ⟨3, _⟩ => ⟨S16x2x1024x1024, .f32⟩
  | .hbm, ⟨4, _⟩ => ⟨S1x2, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1x1x256x1024, .f32⟩
  | .local _ .vmem, ⟨1, _⟩ => ⟨S1x1x256x1024, .f32⟩
  | .local _ .vmem, ⟨2, _⟩ => ⟨S1x1x256x1024, .f32⟩
  | .local _ .vmem, ⟨3, _⟩ => ⟨S1x1x256x1024, .f32⟩
  | .local _ .vmem, ⟨4, _⟩ => ⟨S1x2x256x1024, .f32⟩
  | .local _ .vmem, ⟨5, _⟩ => ⟨S1x2x256x1024, .f32⟩
  | .local _ .vmem, ⟨6, _⟩ => ⟨S1x2x256x1024, .f32⟩
  | .local _ .vmem, ⟨7, _⟩ => ⟨S1x2x256x1024, .f32⟩
  | .local _ .vmem, ⟨8, _⟩ => ⟨S1x2, .f32⟩
  | .local _ .vmem, ⟨9, _⟩ => ⟨S1x1, .f32⟩
  | .local _ .vmem, ⟨10, _⟩ => ⟨S1x1, .f32⟩
  | _, _ => ⟨S16x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg0 : BitVec 32 := BitVec.ofNat 32 (i 0).val
  let c15_i32 : BitVec 32 := 15#32
  let v47 : BitVec 1 := Scalar.cmpi .eq arg0 c15_i32
  let arg1 : BitVec 32 := BitVec.ofNat 32 (i 1).val
  let c3_i32 : BitVec 32 := 3#32
  let v48 : BitVec 1 := Scalar.cmpi .eq arg1 c3_i32
  let v49 : BitVec 1 := Scalar.andi v47 v48
  let v50 : BitVec 32 := Scalar.extui v49
  let c0_i32_30 : BitVec 32 := 0#32
  let v51 : BitVec 1 := Scalar.cmpi .ne v50 c0_i32_30
  v51

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x2x256x1024_S1x2x256x1024_0_0_0_0 : ∀ a, (![0, 0, 0, 0] : Fin 4 → Nat) a + S1x2x256x1024.size a ≤ S1x2x256x1024.size a
  h_S1x2x256x1024 : 0 < S1x2x256x1024.numel
  inb_S1x1x256x1024_S1x1x256x1024_0_0_0_0 : ∀ a, (![0, 0, 0, 0] : Fin 4 → Nat) a + S1x1x256x1024.size a ≤ S1x1x256x1024.size a
  h_S1x1x256x1024 : 0 < S1x1x256x1024.numel
  reduces_S1x2x256x1024_S1x256x1024 : S1x2x256x1024.Reduces [1] S1x256x1024
  shapeCasts_S1x256x1024_S1x1x256x1024 : S1x256x1024.ShapeCasts S1x1x256x1024
  broadcasts_S1x1x256x1024_S1x2x256x1024 : S1x1x256x1024.Broadcasts S1x2x256x1024
  shapeCasts_S1x1x256x1024_S1x1x1x256x1024 : S1x1x256x1024.ShapeCasts S1x1x1x256x1024
  reduces_S1x1x1x256x1024_S1 : S1x1x1x256x1024.Reduces [1, 2, 3, 4] S1
  shapeCasts_S1_S1x1x1x1x1 : S1.ShapeCasts S1x1x1x1x1
  inpos_S1x1x1x1x1_p0_0_0_0_0 : ∀ a, (![0, 0, 0, 0, 0] : Fin 5 → Nat) a < S1x1x1x1x1.size a
  inb_S1x2_S1x1_0_0 : ∀ a, (![0, 0] : Fin 2 → Nat) a + S1x1.size a ≤ S1x2.size a
  inb_S1x2_S1x1_0_1 : ∀ a, (![0, 1] : Fin 2 → Nat) a + S1x1.size a ≤ S1x2.size a
  slices_S1x2_S1x1_0_0 : S1x2.Slices ![0, 0] S1x1
  shapeCasts_S1x1_S_ : S1x1.ShapeCasts S_
  slices_S1x2_S1x1_0_1 : S1x2.Slices ![0, 1] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x1024.size a ≤ S16x1x1024x1024.size a
  hwx0_0 : ∀ i : grid0.Coords, EltTy.bits .f32 = 32 ∨ (Rect.block (s := S16x1x1024x1024) S1x1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256x1024.size a ≤ S16x1x1024x1024.size a
  hwx0_1 : ∀ i : grid0.Coords, EltTy.bits .f32 = 32 ∨ (Rect.block (s := S16x1x1024x1024) S1x1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x256x1024.size a ≤ S16x2x1024x1024.size a
  hwx0_2 : ∀ i : grid0.Coords, EltTy.bits .f32 = 32 ∨ (Rect.block (s := S16x2x1024x1024) S1x2x256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x256x1024.size a ≤ S16x2x1024x1024.size a
  hwx0_3 : ∀ i : grid0.Coords, EltTy.bits .f32 = 32 ∨ (Rect.block (s := S16x2x1024x1024) S1x2x256x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2.size a ≤ S1x2.size a
  hwx0_4 : ∀ i : grid0.Coords, EltTy.bits .f32 = 32 ∨ (Rect.block (s := S1x2) S1x2.size (cc0_transform_4 i) (hinb0_4 i)).WholeWords (EltTy.packing .f32)

variable [Facts₀]

abbrev win0_0 : Pipeline.Window sig grid0 :=
  Pipeline.Window.ofSpec (Memref.whole main_arg0) S1x1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2x256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x2x256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x2.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x1x1024x1024 : Shape := ⟨4, ![16, 1, 1024, 1024]⟩
abbrev S16x2x1024x1024 : Shape := ⟨4, ![16, 2, 1024, 1024]⟩
abbrev S_ : Shape := ⟨0, ![]⟩
abbrev S16x1024x1024 : Shape := ⟨3, ![16, 1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16x1x1024x1024, .f32⟩
  | .hbm, ⟨1, _⟩ => ⟨S16x1x1024x1024, .f32⟩
  | .hbm, ⟨2, _⟩ => ⟨S16x2x1024x1024, .f32⟩
  | .hbm, ⟨3, _⟩ => ⟨S16x2x1024x1024, .f32⟩
  | .hbm, ⟨4, _⟩ => ⟨S16x2x1024x1024, .f32⟩
  | .hbm, ⟨5, _⟩ => ⟨S16x2x1024x1024, .f32⟩
  | .hbm, ⟨6, _⟩ => ⟨S_, .f32⟩
  | .hbm, ⟨7, _⟩ => ⟨S16x2x1024x1024, .f32⟩
  | .hbm, ⟨8, _⟩ => ⟨S16x2x1024x1024, .f32⟩
  | .hbm, ⟨9, _⟩ => ⟨S_, .f32⟩
  | .hbm, ⟨10, _⟩ => ⟨S16x2x1024x1024, .f32⟩
  | .hbm, ⟨11, _⟩ => ⟨S16x2x1024x1024, .f32⟩
  | .hbm, ⟨12, _⟩ => ⟨S_, .f32⟩
  | .hbm, ⟨13, _⟩ => ⟨S16x1024x1024, .f32⟩
  | .hbm, ⟨14, _⟩ => ⟨S_, .f32⟩
  | .hbm, ⟨15, _⟩ => ⟨S16x1024x1024, .f32⟩
  | .hbm, ⟨16, _⟩ => ⟨S16x1024x1024, .f32⟩
  | .hbm, ⟨17, _⟩ => ⟨S16x1x1024x1024, .f32⟩
  | .hbm, ⟨18, _⟩ => ⟨S16x2x1024x1024, .f32⟩
  | .hbm, ⟨19, _⟩ => ⟨S16x2x1024x1024, .f32⟩
  | .hbm, ⟨20, _⟩ => ⟨S16x2x1024x1024, .f32⟩
  | .hbm, ⟨21, _⟩ => ⟨S_, .f32⟩
  | .hbm, ⟨22, _⟩ => ⟨S16x1024x1024, .f32⟩
  | .hbm, ⟨23, _⟩ => ⟨S16x1x1024x1024, .f32⟩
  | .hbm, ⟨24, _⟩ => ⟨S16x1x1024x1024, .f32⟩
  | .hbm, ⟨25, _⟩ => ⟨S16x2x1024x1024, .f32⟩
  | .hbm, ⟨26, _⟩ => ⟨S16x2x1024x1024, .f32⟩
  | .hbm, ⟨27, _⟩ => ⟨S16x2x1024x1024, .f32⟩
  | .hbm, ⟨28, _⟩ => ⟨S_, .f32⟩
  | .hbm, ⟨29, _⟩ => ⟨S16x1024x1024, .f32⟩
  | .hbm, ⟨30, _⟩ => ⟨S16x1024x1024, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S16x1x1024x1024, .f32⟩
  | .hbm, ⟨36, _⟩ => ⟨S16x1x1024x1024, .f32⟩
  | .hbm, ⟨37, _⟩ => ⟨S16x1x1024x1024, .f32⟩
  | .hbm, ⟨38, _⟩ => ⟨S_, .f32⟩
  | .hbm, ⟨39, _⟩ => ⟨S_, .f32⟩
  | _, _ => ⟨S16x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_call0_cst_0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_cst_1 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_cst_3 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_4 : Ref sig .tc := ⟨.hbm, 38, rfl⟩
abbrev main_v15 : Ref sig .tc := ⟨.hbm, 39, rfl⟩

abbrev nD : Nat := 1
abbrev τ : Topo := Topo.v7x

variable {F : FTy → Type} [FloatOps F]

class Facts₀ : Prop where
  bcast_S_S16x2x1024x1024 : S_.BroadcastsInDim S16x2x1024x1024 (![] : Fin 0 → Fin S16x2x1024x1024.rank)
  reducesTo_S16x2x1024x1024_S16x1024x1024_d1 : S16x2x1024x1024.ReducesTo [1] S16x1024x1024
  h_S_ : 0 < S_.numel
  bcast_S_S16x1024x1024 : S_.BroadcastsInDim S16x1024x1024 (![] : Fin 0 → Fin S16x1024x1024.rank)
  bcast_S16x1024x1024_S16x1x1024x1024_0_2_3 : S16x1024x1024.BroadcastsInDim S16x1x1024x1024 (![0, 2, 3] : Fin 3 → Fin S16x1x1024x1024.rank)
  bcast_S16x1x1024x1024_S16x2x1024x1024_0_1_2_3 : S16x1x1024x1024.BroadcastsInDim S16x2x1024x1024 (![0, 1, 2, 3] : Fin 4 → Fin S16x2x1024x1024.rank)
  reducesTo_S16x1024x1024_S_d0_1_2 : S16x1024x1024.ReducesTo [0, 1, 2] S_
  bcast_S_S16x1x1024x1024 : S_.BroadcastsInDim S16x1x1024x1024 (![] : Fin 0 → Fin S16x1x1024x1024.rank)
  reducesTo_S16x1x1024x1024_S_d0_1_2_3 : S16x1x1024x1024.ReducesTo [0, 1, 2, 3] S_

variable [Facts₀]

class Facts : Prop extends Facts₀ where

variable [Facts]
-- ==== Proof.LibSumIdx.lean ====
/-
  Sums over an index set of rank 3, 4 or 5, coordinate by coordinate.

  An index of a shape with literal extents [n0, …] is the tuple of its coordinates (`ValueIdx.ix3` … `ix5`), so the index set
  is in bijection with the product of the coordinate ranges and a sum over it is the nested sum over the coordinates —
  the rank-2 statement of the library (`ValueIdx.sum_idx2`) at ranks 3, 4 and 5, for sums in any commutative monoid.
  A sum over every element of an array (a total reduction) is re-indexed through these before its terms are compared.
-/
import Idealize.ShloMosaic.Lib.ValueIdx

noncomputable section

open scoped BigOperators

namespace Cert.LibSumIdx

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A rank-5 index set is the product of its five coordinate ranges. -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- A sum over a rank-5 index set is the fivefold sum over the coordinates. -/
theorem sum_idx5 {M : Type*} [AddCommMonoid M] {n0 n1 n2 n3 n4 : Nat} (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f]
  simp only [Fintype.sum_prod_type]
  rfl

/-- A sum over the one element of `Fin 1`. -/
theorem sum_fin1 {M : Type*} [AddCommMonoid M] (f : Fin 1 → M) : ∑ a : Fin 1, f a = f 0 := by
  exact Fin.sum_univ_one f

end Cert.LibSumIdx

end
-- ==== Proof.Spec.lean ====
/-
  The mathematics both programs compute, with no program in sight.

  Per pixel (b, h, w) the two logits p₀ p₁ pass through the logistic function, s_k = 1 / (1 + e^(-p_k)); the loss term is the
  cross entropy of the targets t₀ t₁ against the log-softmax of (s₀, s₁), taken with the running maximum M = max(s₀, s₁)
  subtracted for stability. The kernel writes it  -(∑_k t_k · (s_k - (log (∑_q e^(s_q - M)) + M)))  (`pixK`), the reference
  -(∑_k t_k · ((s_k - M) - log (∑_q e^(s_q - M))))  (`pixR`): the same real number when the logits are finite, since then
  s_k, M and the logarithm are finite and  a - (L + M) = (a - M) - L.
  The kernel sums the pixel terms block by block (64 blocks of 256 rows: batch n / 4, rows 256·(n % 4) + r), divides by the
  pixel count 2^24 and multiplies by the sum of mask · scale; the reference multiplies every mask · scale by the mean and sums:
  (∑ P / c) · (∑ a) = ∑ (a · (∑ P / c)), distributivity, which holds once every term is a real number.
-/
import Idealize.ShloMosaic.PureOps.Ideal
import Idealize.ShloMosaic.PureOps.Ideal.Laws
import Idealize.ShloMosaic.Lib.ValueIdx
import proofs.«155366_j63754494541943_1_alg».proof.Proof.LibSumIdx

noncomputable section

open scoped BigOperators

namespace Cert.XYLoss

open Idealize.ShloMosaic Idealize.ShloMosaic.ValueIdx

/-- The mask's and the scale's shape, and the logits' and the targets'. -/
abbrev A4 : Shape := ⟨4, ![16, 1, 1024, 1024]⟩
abbrev P4 : Shape := ⟨4, ![16, 2, 1024, 1024]⟩

/-! ## Sums over an index set, coordinate by coordinate

The nested-sum forms of a sum over a rank-3, rank-4 or rank-5 index set, and the sum over the one element of `Fin 1`,
are stated once for every shape (the module imported above); they are used here under this namespace's names. -/

export Cert.LibSumIdx (idxEquiv3 idxEquiv4 idxEquiv5 sum_idx3 sum_idx4 sum_idx5 sum_fin1)

/-! ## The constants -/

theorem ofBits_one : Ideal.ofBits .f32 0x3F800000#32 = 1 := by
  simp [Ideal.ofBits, Ideal.ieee, -EReal.coe_mul]; norm_num
theorem ofBits_negInf : Ideal.ofBits .f32 0xFF800000#32 = ⊥ := by
  simp [Ideal.ofBits, Ideal.ieee]
/-- The pixel count 16 · 1024 · 1024 = 2^24. -/
theorem ofBits_count : Ideal.ofBits .f32 0x4B800000#32 = ((16777216 : ℝ) : EReal) := by
  simp [Ideal.ofBits, Ideal.ieee, -EReal.coe_mul]; norm_num

/-! ## One pixel -/

/-- The running maximum over the two channels, started from the pattern of -∞. -/
def chanMax (s : Fin 2 → EReal) : EReal := (Finset.univ : Finset (Fin 2)).fold max (Ideal.ofBits .f32 0xFF800000#32) s

/-- The pixel's loss term as the kernel writes it. -/
def pixK (p t : Fin 2 → EReal) : EReal :=
  -(∑ k : Fin 2, t k * (Ideal.logistic (p k)
      - (Ideal.log (∑ q : Fin 2, Ideal.exp (Ideal.logistic (p q) - chanMax fun j => Ideal.logistic (p j)))
          + chanMax fun j => Ideal.logistic (p j))))

/-- The pixel's loss term as the reference writes it. -/
def pixR (p t : Fin 2 → EReal) : EReal :=
  -(∑ k : Fin 2, t k * ((Ideal.logistic (p k) - chanMax fun j => Ideal.logistic (p j))
      - Ideal.log (∑ q : Fin 2, Ideal.exp (Ideal.logistic (p q) - chanMax fun j => Ideal.logistic (p j)))))

/-! ## The blocks -/

/-- Grid point `n` of the 16 × 4 grid works on batch `n / 4` … -/
def blockBatch (n : Fin 64) : Fin 16 := ⟨n.val / 4, by have := n.isLt; omega⟩
/-- … and on rows `256 · (n % 4) + r`. -/
def blockRow (n : Fin 64) (r : Fin 256) : Fin 1024 := ⟨256 * (n.val % 4) + r.val, by have := n.isLt; have := r.isLt; omega⟩

/-! ## The two totals -/

/-- What the kernel's program returns. -/
def kerTotal (x0 x1 : A4.Idx → EReal) (x2 x3 : P4.Idx → EReal) : EReal :=
  Ideal.div (∑ n : Fin 64, ∑ r : Fin 256, ∑ w : Fin 1024,
      pixK (fun k => x2 (ix4 (blockBatch n) k (blockRow n r) w)) (fun k => x3 (ix4 (blockBatch n) k (blockRow n r) w)))
    (Ideal.ofBits .f32 0x4B800000#32)
  * (∑ n : Fin 64, ∑ r : Fin 256, ∑ w : Fin 1024,
      x0 (ix4 (blockBatch n) (0 : Fin 1) (blockRow n r) w) * x1 (ix4 (blockBatch n) (0 : Fin 1) (blockRow n r) w))

/-- What the reference returns. -/
def refTotal (x0 x1 : A4.Idx → EReal) (x2 x3 : P4.Idx → EReal) : EReal :=
  ∑ b : Fin 16, ∑ h : Fin 1024, ∑ w : Fin 1024,
    (x0 (ix4 b (0 : Fin 1) h w) * x1 (ix4 b (0 : Fin 1) h w))
      * Ideal.div (∑ b' : Fin 16, ∑ h' : Fin 1024, ∑ w' : Fin 1024,
          pixR (fun k => x2 (ix4 b' k h' w')) (fun k => x3 (ix4 b' k h' w')))
        (Ideal.ofBits .f32 0x4B800000#32)

/-! ## Real numbers inside the extended reals -/

/-- The inclusion of the reals is additive, so it passes through a finite sum. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The inclusion of the reals is monotone, so it passes through a maximum. -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The running maximum of two real numbers, started from -∞, is their maximum. -/
theorem chanMax_coe (s : Fin 2 → ℝ) :
    chanMax (fun k => ((s k : ℝ) : EReal)) = ((max (s 0) (s 1) : ℝ) : EReal) := by
  have hu : (Finset.univ : Finset (Fin 2)) = insert 0 {1} := by decide
  unfold chanMax
  rw [hu, Finset.fold_insert (by decide), Finset.fold_singleton, ofBits_negInf, max_bot_right, coe_max]

/-! ## One pixel, in the reals -/

/-- The logistic function of channel `k`'s logit. -/
def sig (p : Fin 2 → ℝ) (k : Fin 2) : ℝ := (1 + Real.exp (-(p k)))⁻¹
/-- The larger of the two. -/
def mx (p : Fin 2 → ℝ) : ℝ := max (sig p 0) (sig p 1)
/-- The logarithm of the sum of the two shifted exponentials. -/
def lse (p : Fin 2 → ℝ) : ℝ := Real.log (Real.exp (sig p 0 - mx p) + Real.exp (sig p 1 - mx p))
/-- The pixel's loss term as a real number. -/
def pixRe (p t : Fin 2 → ℝ) : ℝ :=
  -(t 0 * ((sig p 0 - mx p) - lse p) + t 1 * ((sig p 1 - mx p) - lse p))

theorem logistic_sig (p : Fin 2 → ℝ) (k : Fin 2) : Ideal.logistic ((p k : ℝ) : EReal) = ((sig p k : ℝ) : EReal) :=
  Ideal.logistic_coe (p k)

theorem chanMax_sig (p : Fin 2 → ℝ) :
    chanMax (fun j => Ideal.logistic ((p j : ℝ) : EReal)) = ((mx p : ℝ) : EReal) := by
  rw [show (fun j => Ideal.logistic ((p j : ℝ) : EReal)) = fun j => ((sig p j : ℝ) : EReal) from
    funext (logistic_sig p)]
  exact chanMax_coe (sig p)

/-- The sum of two exponentials is positive, so its logarithm is a real number. -/
theorem log_sig (p : Fin 2 → ℝ) :
    Ideal.log (∑ q : Fin 2, Ideal.exp (Ideal.logistic ((p q : ℝ) : EReal) - ((mx p : ℝ) : EReal)))
      = ((lse p : ℝ) : EReal) := by
  have hpos : ¬ (Real.exp (sig p 0 - mx p) + Real.exp (sig p 1 - mx p) ≤ 0) :=
    not_le.mpr (add_pos (Real.exp_pos _) (Real.exp_pos _))
  rw [Fin.sum_univ_two, logistic_sig, logistic_sig, ← EReal.coe_sub, ← EReal.coe_sub, Ideal.exp_coe, Ideal.exp_coe,
    ← EReal.coe_add, Ideal.log_coe, if_neg hpos]
  rfl

/-- The kernel's pixel term at real logits and targets is the real pixel term: a - (L + M) = (a - M) - L. -/
theorem pixK_coe (p t : Fin 2 → ℝ) :
    pixK (fun k => ((p k : ℝ) : EReal)) (fun k => ((t k : ℝ) : EReal)) = ((pixRe p t : ℝ) : EReal) := by
  unfold pixK
  simp only [chanMax_sig p]
  simp only [log_sig p]
  simp only [logistic_sig p]
  rw [Fin.sum_univ_two, ← EReal.coe_add, ← EReal.coe_sub, ← EReal.coe_sub, ← EReal.coe_mul, ← EReal.coe_mul,
    ← EReal.coe_add, ← EReal.coe_neg]
  congr 1
  unfold pixRe
  ring

/-- The reference's pixel term at real logits and targets is the real pixel term. -/
theorem pixR_coe (p t : Fin 2 → ℝ) :
    pixR (fun k => ((p k : ℝ) : EReal)) (fun k => ((t k : ℝ) : EReal)) = ((pixRe p t : ℝ) : EReal) := by
  unfold pixR
  simp only [chanMax_sig p]
  simp only [log_sig p]
  simp only [logistic_sig p]
  rw [Fin.sum_univ_two, ← EReal.coe_sub, ← EReal.coe_sub, ← EReal.coe_sub, ← EReal.coe_sub, ← EReal.coe_mul,
    ← EReal.coe_mul, ← EReal.coe_add, ← EReal.coe_neg]
  rfl

/-! ## The blocks cover every (batch, row) once -/

/-- (block, row in the block) ↦ (batch, row) is a bijection: n = 4·b + q and h = 256·q + r. -/
def blockEquiv : Fin 64 × Fin 256 ≃ Fin 16 × Fin 1024 where
  toFun x := (blockBatch x.1, blockRow x.1 x.2)
  invFun y := (⟨4 * y.1.val + y.2.val / 256, by have := y.1.isLt; have := y.2.isLt; omega⟩,
    ⟨y.2.val % 256, by omega⟩)
  left_inv x := by
    obtain ⟨n, r⟩ := x
    have := n.isLt; have := r.isLt
    refine Prod.ext (Fin.ext ?_) (Fin.ext ?_)
    · simp only [blockBatch, blockRow]; omega
    · simp only [blockBatch, blockRow]; omega
  right_inv y := by
    obtain ⟨b, h⟩ := y
    have := b.isLt; have := h.isLt
    refine Prod.ext (Fin.ext ?_) (Fin.ext ?_)
    · simp only [blockBatch, blockRow]; omega
    · simp only [blockBatch, blockRow]; omega

/-- So a sum over blocks and rows in the block is the sum over batches and rows. -/
theorem sum_blocks {M : Type*} [AddCommMonoid M] (F : Fin 16 → Fin 1024 → M) :
    ∑ n : Fin 64, ∑ r : Fin 256, F (blockBatch n) (blockRow n r) = ∑ b : Fin 16, ∑ h : Fin 1024, F b h := by
  rw [← Fintype.sum_prod_type' (fun n r => F (blockBatch n) (blockRow n r)), ← Fintype.sum_prod_type' F]
  exact Equiv.sum_comp blockEquiv (fun y => F y.1 y.2)

/-! ## The totals -/

/-- In the reals: m · ∑ a = ∑ (a · m). -/
theorem real_total (A : Fin 16 → Fin 1024 → Fin 1024 → ℝ) (m : ℝ) :
    m * (∑ b, ∑ h, ∑ w, A b h w) = ∑ b, ∑ h, ∑ w, A b h w * m := by
  rw [mul_comm]
  simp only [Finset.sum_mul]

/-- The two totals over any pixel terms and weights that are real numbers, the pixel terms the same real. -/
theorem totals_eq (PK PR AE : Fin 16 → Fin 1024 → Fin 1024 → EReal) (P A : Fin 16 → Fin 1024 → Fin 1024 → ℝ)
    (hK : ∀ b h w, PK b h w = ((P b h w : ℝ) : EReal)) (hR : ∀ b h w, PR b h w = ((P b h w : ℝ) : EReal))
    (hA : ∀ b h w, AE b h w = ((A b h w : ℝ) : EReal)) :
    Ideal.div (∑ n : Fin 64, ∑ r : Fin 256, ∑ w : Fin 1024, PK (blockBatch n) (blockRow n r) w)
        (Ideal.ofBits .f32 0x4B800000#32)
      * (∑ n : Fin 64, ∑ r : Fin 256, ∑ w : Fin 1024, AE (blockBatch n) (blockRow n r) w)
    = ∑ b : Fin 16, ∑ h : Fin 1024, ∑ w : Fin 1024,
        AE b h w * Ideal.div (∑ b' : Fin 16, ∑ h' : Fin 1024, ∑ w' : Fin 1024, PR b' h' w')
          (Ideal.ofBits .f32 0x4B800000#32) := by
  rw [sum_blocks (fun b h => ∑ w, PK b h w), sum_blocks (fun b h => ∑ w, AE b h w)]
  simp only [hK, hR, hA, ofBits_count]
  simp only [← coe_sum]
  rw [Ideal.div_coe (by norm_num : (16777216 : ℝ) ≠ 0)]
  simp only [← EReal.coe_mul, ← coe_sum]
  rw [real_total]

/-- The two totals are one extended real when every input is a real number. -/
theorem kerTotal_eq_refTotal (x0 x1 : A4.Idx → EReal) (x2 x3 : P4.Idx → EReal)
    (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal)) :
    kerTotal x0 x1 x2 x3 = refTotal x0 x1 x2 x3 := by
  choose a0 ha0 using h0
  choose a1 ha1 using h1
  choose a2 ha2 using h2
  choose a3 ha3 using h3
  obtain rfl : x0 = fun i => ((a0 i : ℝ) : EReal) := funext ha0
  obtain rfl : x1 = fun i => ((a1 i : ℝ) : EReal) := funext ha1
  obtain rfl : x2 = fun i => ((a2 i : ℝ) : EReal) := funext ha2
  obtain rfl : x3 = fun i => ((a3 i : ℝ) : EReal) := funext ha3
  exact totals_eq
    (fun b h w => pixK (fun k => ((a2 (ix4 b k h w) : ℝ) : EReal)) (fun k => ((a3 (ix4 b k h w) : ℝ) : EReal)))
    (fun b h w => pixR (fun k => ((a2 (ix4 b k h w) : ℝ) : EReal)) (fun k => ((a3 (ix4 b k h w) : ℝ) : EReal)))
    (fun b h w => ((a0 (ix4 b (0 : Fin 1) h w) : ℝ) : EReal) * ((a1 (ix4 b (0 : Fin 1) h w) : ℝ) : EReal))
    (fun b h w => pixRe (fun k => a2 (ix4 b k h w)) (fun k => a3 (ix4 b k h w)))
    (fun b h w => a0 (ix4 b (0 : Fin 1) h w) * a1 (ix4 b (0 : Fin 1) h w))
    (fun b h w => pixK_coe _ _) (fun b h w => pixR_coe _ _) (fun b h w => (EReal.coe_mul _ _).symm)

end Cert.XYLoss

end
-- ==== Proof.RefSide.lean ====
/-
  The reference's result, read index by index: the printed host operations, composed, are the total `refTotal`
  of the four argument arrays — the logistic of each logit (the host spells it 1 / (1 + e^(-p))), the two channels'
  running maximum from -∞, the log-sum-exp, the targets' cross entropy per pixel, its sum over all pixels divided by
  the pixel count, and the sum over all pixels of mask · scale · that mean.
-/
import proofs.«155366_j63754494541943_1_alg».proof.Proof.RefRead
import proofs.«155366_j63754494541943_1_alg».proof.Proof.Spec
import Idealize.ShloMosaic.Lib.ValueIdx
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.ReadP Idealize.ShloMosaic Idealize.ShloMosaic.ValueIdx

/-! ## The composed index functions at coordinates -/

/-- The channel-sum's source index over pixel (b, h, w) at channel k is (b, k, h, w). -/
theorem idx_v8_ix (b : Fin 16) (h w : Fin 1024) (k : Fin 2) : idx_main_v8 (ix3 b h w) k = ix4 b k h w :=
  funext fun a => Fin.ext (by match a with | ⟨0, _⟩ => rfl | ⟨1, _⟩ => rfl | ⟨2, _⟩ => rfl | ⟨3, _⟩ => rfl)

theorem idx_c7_ix (b : Fin 16) (h w : Fin 1024) (k : Fin 2) : idx_main_call0_v7 (ix3 b h w) k = ix4 b k h w :=
  funext fun a => Fin.ext (by match a with | ⟨0, _⟩ => rfl | ⟨1, _⟩ => rfl | ⟨2, _⟩ => rfl | ⟨3, _⟩ => rfl)

/-- Broadcasting along the channel axis reads channel 0 of the unit-channel array. -/
theorem idx_c4_ix (b : Fin 16) (k : Fin 2) (h w : Fin 1024) : idx_main_call0_v4 (ix4 b k h w) = ix4 b (0 : Fin 1) h w :=
  funext fun a => Fin.ext (by match a with | ⟨0, _⟩ => rfl | ⟨1, _⟩ => rfl | ⟨2, _⟩ => rfl | ⟨3, _⟩ => rfl)

theorem idx_c10_ix (b : Fin 16) (k : Fin 2) (h w : Fin 1024) : idx_main_call0_v10 (ix4 b k h w) = ix4 b (0 : Fin 1) h w :=
  funext fun a => Fin.ext (by match a with | ⟨0, _⟩ => rfl | ⟨1, _⟩ => rfl | ⟨2, _⟩ => rfl | ⟨3, _⟩ => rfl)

/-- Inserting the unit channel axis reads the pixel. -/
theorem idx_c3_ix (b : Fin 16) (c : Fin 1) (h w : Fin 1024) : idx_main_call0_v3 (ix4 b c h w) = ix3 b h w :=
  funext fun a => Fin.ext (by match a with | ⟨0, _⟩ => rfl | ⟨1, _⟩ => rfl | ⟨2, _⟩ => rfl)

theorem idx_c8_ix (b : Fin 16) (c : Fin 1) (h w : Fin 1024) : idx_main_call0_v8 (ix4 b c h w) = ix3 b h w :=
  funext fun a => Fin.ext (by match a with | ⟨0, _⟩ => rfl | ⟨1, _⟩ => rfl | ⟨2, _⟩ => rfl)

/-! ## One element -/

/-- The host's 1 / (1 + e^(-p)) is the logistic function of the logit. -/
theorem v5_eq (x2 : (⟨S16x2x1024x1024, .f32⟩ : BufTy).Contents (Elt Ideal)) (i : S16x2x1024x1024.Idx) :
    val_main_v5 (F := Ideal) x2 i = Ideal.logistic (x2 i) := by
  rw [val_main_v5_apply, val_main_v4_apply, val_main_cst_0_apply, val_main_v3_apply, val_main_v2_apply,
    val_main_cst_apply, val_main_v1_apply, val_main_v0_apply]
  simp only [Ideal.hostDivf_def, Ideal.ofBits_def, Cert.XYLoss.ofBits_one, Ideal.addf_def, Ideal.hostUnary_exp_def,
    Ideal.hostNegf_def, Ideal.negf_def]
  rfl

/-- The max-reduce's source index over pixel (b, h, w) at channel k is (b, k, h, w). -/
theorem lift_ix (hr : S16x2x1024x1024.Reduces [1] S16x1024x1024) (b : Fin 16) (h w : Fin 1024) (k : Fin 2) :
    hr.lift (ix3 b h w) k = ix4 b k h w :=
  funext fun a => Fin.ext (by match a with | ⟨0, _⟩ => rfl | ⟨1, _⟩ => rfl | ⟨2, _⟩ => rfl | ⟨3, _⟩ => rfl)

/-- The max-reduce over the channel axis, from -∞, at a pixel: the running maximum of the two logistic values. -/
theorem c0_eq (x2 : (⟨S16x2x1024x1024, .f32⟩ : BufTy).Contents (Elt Ideal)) (b : Fin 16) (h w : Fin 1024) :
    val_main_call0_v0 (F := Ideal) x2 (ix3 b h w) = Cert.XYLoss.chanMax (fun j => Ideal.logistic (x2 (ix4 b j h w))) := by
  unfold val_main_call0_v0
  have hr : S16x2x1024x1024.Reduces [1] S16x1024x1024 := by decide
  rw [Host.reduce_eq_fold_single FloatOps.maximumf _ _ reducesTo_S16x2x1024x1024_S16x1024x1024_d1 hr]
  unfold Cert.XYLoss.chanMax
  have hf : (val_main_v5 (F := Ideal) x2 ∘ hr.lift (ix3 b h w)) = fun j : Fin 2 => Ideal.logistic (x2 (ix4 b j h w)) := by
    refine funext fun (k : Fin 2) => ?_
    show val_main_v5 (F := Ideal) x2 (hr.lift (ix3 b h w) k) = _
    rw [lift_ix hr b h w k, v5_eq]
  rw [hf]
  rfl

/-- The maximum with the broadcast -∞ changes nothing: the stabilizer at a pixel is the running maximum. -/
theorem c2_eq (x2 : (⟨S16x2x1024x1024, .f32⟩ : BufTy).Contents (Elt Ideal)) (b : Fin 16) (h w : Fin 1024) :
    val_main_call0_v2 (F := Ideal) x2 (ix3 b h w) = Cert.XYLoss.chanMax (fun j => Ideal.logistic (x2 (ix4 b j h w))) := by
  rw [val_main_call0_v2_apply, val_main_call0_v1_apply, val_main_call0_cst_0_apply, c0_eq]
  simp only [Ideal.maximumf_def, Ideal.ofBits_def, Cert.XYLoss.ofBits_negInf]
  exact max_eq_right bot_le

/-- The shifted value at (b, k, h, w): the logistic value minus the pixel's running maximum. -/
theorem c5_eq (x2 : (⟨S16x2x1024x1024, .f32⟩ : BufTy).Contents (Elt Ideal)) (b : Fin 16) (k : Fin 2) (h w : Fin 1024) :
    val_main_call0_v5 (F := Ideal) x2 (ix4 b k h w)
      = Ideal.logistic (x2 (ix4 b k h w)) - Cert.XYLoss.chanMax (fun j => Ideal.logistic (x2 (ix4 b j h w))) := by
  rw [val_main_call0_v5_apply, v5_eq, val_main_call0_v4_apply, idx_c4_ix, val_main_call0_v3_apply, idx_c3_ix, c2_eq]
  rfl

/-- The sum of the exponentials of the shifted values over the two channels, at a pixel. -/
theorem c7_eq (x2 : (⟨S16x2x1024x1024, .f32⟩ : BufTy).Contents (Elt Ideal)) (b : Fin 16) (h w : Fin 1024) :
    val_main_call0_v7 (F := Ideal) x2 (ix3 b h w)
      = ∑ q : Fin 2, Ideal.exp (Ideal.logistic (x2 (ix4 b q h w)) - Cert.XYLoss.chanMax (fun j => Ideal.logistic (x2 (ix4 b j h w)))) := by
  rw [val_main_call0_v7_apply, val_main_call0_cst_1_apply]
  simp only [Ideal.ofBits_def, Ideal.ofBits_zero_f32, zero_add]
  refine Finset.sum_congr rfl fun q _ => ?_
  rw [idx_c7_ix, val_main_call0_v6_apply, c5_eq]
  rfl

/-- The log-softmax at (b, k, h, w). -/
theorem v6_eq (x2 : (⟨S16x2x1024x1024, .f32⟩ : BufTy).Contents (Elt Ideal)) (b : Fin 16) (k : Fin 2) (h w : Fin 1024) :
    val_main_v6 (F := Ideal) x2 (ix4 b k h w)
      = (Ideal.logistic (x2 (ix4 b k h w)) - Cert.XYLoss.chanMax (fun j => Ideal.logistic (x2 (ix4 b j h w))))
        - Ideal.log (∑ q : Fin 2, Ideal.exp (Ideal.logistic (x2 (ix4 b q h w)) - Cert.XYLoss.chanMax (fun j => Ideal.logistic (x2 (ix4 b j h w))))) := by
  rw [val_main_v6_apply, c5_eq, val_main_call0_v10_apply, idx_c10_ix, val_main_call0_v9_apply, val_main_call0_v8_apply,
    idx_c8_ix, c7_eq]
  rfl

/-- The pixel's loss term: minus the sum over the channels of target times log-softmax. -/
theorem v9_eq (x2 x3 : (⟨S16x2x1024x1024, .f32⟩ : BufTy).Contents (Elt Ideal)) (b : Fin 16) (h w : Fin 1024) :
    val_main_v9 (F := Ideal) x2 x3 (ix3 b h w)
      = Cert.XYLoss.pixR (fun k => x2 (ix4 b k h w)) (fun k => x3 (ix4 b k h w)) := by
  rw [val_main_v9_apply, val_main_v8_apply, val_main_cst_1_apply]
  simp only [Ideal.ofBits_def, Ideal.ofBits_zero_f32, zero_add, Ideal.hostNegf_def, Ideal.negf_def]
  unfold Cert.XYLoss.pixR
  refine congrArg Neg.neg (Finset.sum_congr rfl fun k _ => ?_)
  rw [idx_v8_ix, val_main_v7_apply, v6_eq]
  rfl

/-! ## The totals -/

/-- The sum of the pixels' loss terms over all pixels. -/
theorem v10_eq (x2 x3 : (⟨S16x2x1024x1024, .f32⟩ : BufTy).Contents (Elt Ideal)) (i : S_.Idx) :
    val_main_v10 (F := Ideal) x2 x3 i
      = ∑ b : Fin 16, ∑ h : Fin 1024, ∑ w : Fin 1024,
          Cert.XYLoss.pixR (fun k => x2 (ix4 b k h w)) (fun k => x3 (ix4 b k h w)) := by
  rw [val_main_v10_apply, val_main_cst_2_apply]
  simp only [Ideal.ofBits_def, Ideal.ofBits_zero_f32, zero_add]
  refine (Cert.XYLoss.sum_idx3 (n0 := 16) (n1 := 1024) (n2 := 1024) (val_main_v9 (F := Ideal) x2 x3)).trans ?_
  exact Finset.sum_congr rfl fun b _ => Finset.sum_congr rfl fun h _ => Finset.sum_congr rfl fun w _ => v9_eq x2 x3 b h w

/-- One element of the product array: mask · scale · the mean loss. -/
theorem v14_eq (x0 x1 : (⟨S16x1x1024x1024, .f32⟩ : BufTy).Contents (Elt Ideal))
    (x2 x3 : (⟨S16x2x1024x1024, .f32⟩ : BufTy).Contents (Elt Ideal)) (i : S16x1x1024x1024.Idx) :
    val_main_v14 (F := Ideal) x0 x1 x2 x3 i
      = (x0 i * x1 i) * Ideal.div (∑ b : Fin 16, ∑ h : Fin 1024, ∑ w : Fin 1024,
          Cert.XYLoss.pixR (fun k => x2 (ix4 b k h w)) (fun k => x3 (ix4 b k h w))) (Ideal.ofBits .f32 0x4B800000#32) := by
  rw [val_main_v14_apply, val_main_v12_apply, val_main_v13_apply, val_main_v11_apply, v10_eq, val_main_cst_3_apply]
  rfl

/-- The reference's result array (one element) holds `refTotal` of the argument arrays. -/
theorem result_eq (x0 x1 : (⟨S16x1x1024x1024, .f32⟩ : BufTy).Contents (Elt Ideal))
    (x2 x3 : (⟨S16x2x1024x1024, .f32⟩ : BufTy).Contents (Elt Ideal)) :
    val_main_v15 (F := Ideal) x0 x1 x2 x3 = fun _ => Cert.XYLoss.refTotal x0 x1 x2 x3 := by
  funext i
  rw [val_main_v15_apply, val_main_cst_4_apply]
  simp only [Ideal.ofBits_def, Ideal.ofBits_zero_f32, zero_add]
  refine (Cert.XYLoss.sum_idx4 (n0 := 16) (n1 := 1) (n2 := 1024) (n3 := 1024) (val_main_v14 (F := Ideal) x0 x1 x2 x3)).trans ?_
  unfold Cert.XYLoss.refTotal
  refine Finset.sum_congr rfl fun b _ => ?_
  rw [Cert.XYLoss.sum_fin1]
  exact Finset.sum_congr rfl fun h _ => Finset.sum_congr rfl fun w _ => v14_eq x0 x1 x2 x3 (ix4 b (0 : Fin 1) h w)

end Cert.ReferenceIdeal.RefValue

end
-- ==== Proof.Finite.lean ====
/-
  The precondition read element by element: when the printed predicate `finite_inputs` is all ones, every element of the
  four argument arrays is a real number — its absolute value lies strictly below +∞, which on the extended reals leaves
  neither infinity.
-/
import proofs.«155366_j63754494541943_1_alg».proof.Pre_finite_inputs
import Idealize.ShloMosaic.Lib.ReduceAll
import Idealize.ShloMosaic.Lib.ValueIdx
import Idealize.ShloMosaic.PureOps.Ideal.Laws

noncomputable section

namespace Cert.Pre_finite_inputs.FiniteValue

open Cert.Pre_finite_inputs Idealize.ShloMosaic Idealize.ShloMosaic.ValueIdx

variable [Cert.Pre_finite_inputs.Facts]

/-- The scalar shape has one index. -/
instance : Subsingleton S_.Idx := ⟨fun _ _ => funext fun d => d.elim0⟩

/-- The pattern 0x7F800000 is +∞. -/
theorem ofBits_posInf : Ideal.ofBits .f32 0x7F800000#32 = ⊤ := by
  simp [Ideal.ofBits, Ideal.ieee]

/-- An extended real whose absolute value max(x, -x) lies strictly below +∞ is a real number: at -∞ the negation is +∞,
    at +∞ the value itself is, and neither is below +∞. -/
theorem real_of_abs_lt_top (x : EReal) (hx : max x (-x) < ⊤) : ∃ r : ℝ, x = (r : EReal) := by
  induction x using EReal.rec with
  | bot => exact absurd hx (by simp)
  | coe r => exact ⟨r, rfl⟩
  | top => exact absurd hx (by simp)

/-- One argument's conjunct: when the and-reduction over all axes of "|x| < +∞" is 1, every element of x is a real number. -/
theorem real_of_all {s : Shape} {axes : List (Fin s.rank)} (hb : S_.BroadcastsInDim s (![] : Fin 0 → Fin s.rank))
    (hr : s.ReducesTo axes S_) (hu : 0 < S_.numel) (x : FVec Ideal s .f32) (j : S_.Idx)
    (e : Host.reduce IntOp.andi (cmpf .olt (Host.absf x) (broadcastInDim s ![] hb (constant S_ .f32 0x7F800000#32)))
          (constantI S_ 1 1#1) hr hu j = 1#1) (i : s.Idx) : ∃ r : ℝ, x i = (r : EReal) := by
  have hi := Host.reduce_andi_all _ _ hr hu j e i
  change BitVec.ofBool (decide (max (x i) (-(x i)) < Ideal.ofBits .f32 0x7F800000#32)) = 1#1 at hi
  rw [ofBits_posInf] at hi
  refine real_of_abs_lt_top (x i) ?_
  by_contra hlt
  rw [decide_eq_false hlt] at hi
  exact absurd hi (by decide)

/-- All ones means: every element of every argument is a real number. -/
theorem real_of_pre (x0 x1 : FVec Ideal S16x1x1024x1024 .f32) (x2 x3 : FVec Ideal S16x2x1024x1024 .f32)
    (h : Cert.Pre_finite_inputs.fn (F := Ideal) x0 x1 x2 x3 = fun _ => 1#1) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  have h0 := congrFun h ix0
  dsimp only [fn, fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨real_of_all _ _ _ x0 ix0 e0, real_of_all _ _ _ x1 ix0 e1, real_of_all _ _ _ x2 ix0 e2, real_of_all _ _ _ x3 ix0 e3⟩

end Cert.Pre_finite_inputs.FiniteValue

end
-- ==== Proof.KerPieces.lean ====
/-
  What the kernel body leaves behind, case by case, read off the run of the body that the frame certificate found.

  The body keeps two running totals in two one-element scratch buffers. At every grid point it adds the block's loss
  term to the first and the block's mask · scale sum to the second (each a pure function of the blocks it loaded:
  the payloads `k0_pay1 (k0_pay5 · ·) ·` and `k0_pay2 (k0_pay6 · ·) ·`); at the first point it stores zeros first
  (`k0_pay3`, `k0_pay4`) and adds to those; at the last point it then copies the two totals into the two elements of the
  output block, column 0 and column 1. Each statement below holds for every float instance.
-/
import proofs.«155366_j63754494541943_1_alg».proof.Proof.Gen.KernelIdeal.Frame
import Idealize.ShloMosaic.Lib.Pipeline.Value
import Idealize.ShloMosaic.Lib.Tactic
import Idealize.ShloMosaic.Lib.ValueIdx

noncomputable section

namespace Cert.KernelIdeal.Pieces

open Cert.KernelIdeal Cert.KernelIdeal.Gen Idealize.ShloMosaic Idealize.ShloMosaic.TcCoe Idealize.ShloMosaic.Tactic Idealize.SL.Sem
open Idealize.ShloMosaic.Pipeline (Dat)

variable {F : FTy → Type} [FloatOps F]

/-- The zero offsets of a whole-buffer access, however spelt. -/
theorem hz4 : (![0, 0, 0, 0] : Fin 4 → Nat) = fun _ => 0 := funext fun a => by fin_cases a <;> rfl
theorem hz2 : (![0, 0] : Fin 2 → Nat) = fun _ => 0 := funext fun a => by fin_cases a <;> rfl

/-! ## What each case of the body leaves in the two running totals

At every grid point the body adds the block's loss term (`k0_pay5` of the logits' and targets' blocks) to the first
running total and the block's mask · scale sum (`k0_pay2` over `k0_pay6`) to the second; the first point stores zeros
(`k0_pay3`, `k0_pay4`) first and adds to those. -/

theorem sout_B_0 (c : Dev nD) (i : grid0.Coords) (arg2 : Memref sig .tc .vmem S1x1x256x1024 .f32) (harg2 : arg2.IsWhole) (arg3 : Memref sig .tc .vmem S1x1x256x1024 .f32) (harg3 : arg3.IsWhole) (arg4 : Memref sig .tc .vmem S1x2x256x1024 .f32) (harg4 : arg4.IsWhole) (arg5 : Memref sig .tc .vmem S1x2x256x1024 .f32) (harg5 : arg5.IsWhole) (arg6 : Memref sig .tc .vmem S1x2 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i) (x0 : Vec F S1x1x256x1024 .f32) (x1 : Vec F S1x1x256x1024 .f32) (x2 : Vec F S1x2x256x1024 .f32) (x3 : Vec F S1x2x256x1024 .f32) (xs0 : Vec F S1x1 .f32) (xs1 : Vec F S1x1 .f32) :
    sout0_B_0 c i arg2 harg2 arg3 harg3 arg4 harg4 arg5 harg5 arg6 harg6 arg7 harg7 arg8 harg8 hc0 hc1 x0 x1 x2 x3 xs0 xs1 = k0_pay1 (k0_pay5 x2 x3) xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz2]
  simp only [View.readAt_eq_ld, harg2.read_unread, harg3.read_unread, harg4.read_unread, harg5.read_unread, harg7.read_unread, harg8.read_unread,
    View.ld_unit_zero (S := S1x1) hz2, View.ld_unit_zero (S := S1x2x256x1024) hz4, View.ld_unit_zero (S := S1x1x256x1024) hz4]

theorem sout_B_1 (c : Dev nD) (i : grid0.Coords) (arg2 : Memref sig .tc .vmem S1x1x256x1024 .f32) (harg2 : arg2.IsWhole) (arg3 : Memref sig .tc .vmem S1x1x256x1024 .f32) (harg3 : arg3.IsWhole) (arg4 : Memref sig .tc .vmem S1x2x256x1024 .f32) (harg4 : arg4.IsWhole) (arg5 : Memref sig .tc .vmem S1x2x256x1024 .f32) (harg5 : arg5.IsWhole) (arg6 : Memref sig .tc .vmem S1x2 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i) (x0 : Vec F S1x1x256x1024 .f32) (x1 : Vec F S1x1x256x1024 .f32) (x2 : Vec F S1x2x256x1024 .f32) (x3 : Vec F S1x2x256x1024 .f32) (xs0 : Vec F S1x1 .f32) (xs1 : Vec F S1x1 .f32) :
    sout0_B_1 c i arg2 harg2 arg3 harg3 arg4 harg4 arg5 harg5 arg6 harg6 arg7 harg7 arg8 harg8 hc0 hc1 x0 x1 x2 x3 xs0 xs1 = k0_pay2 (k0_pay6 x0 x1) xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz2]
  simp only [View.readAt_eq_ld, harg2.read_unread, harg3.read_unread, harg4.read_unread, harg5.read_unread, harg7.read_unread, harg8.read_unread,
    View.ld_unit_zero (S := S1x1) hz2, View.ld_unit_zero (S := S1x2x256x1024) hz4, View.ld_unit_zero (S := S1x1x256x1024) hz4]

theorem sout_C_0 (c : Dev nD) (i : grid0.Coords) (arg2 : Memref sig .tc .vmem S1x1x256x1024 .f32) (harg2 : arg2.IsWhole) (arg3 : Memref sig .tc .vmem S1x1x256x1024 .f32) (harg3 : arg3.IsWhole) (arg4 : Memref sig .tc .vmem S1x2x256x1024 .f32) (harg4 : arg4.IsWhole) (arg5 : Memref sig .tc .vmem S1x2x256x1024 .f32) (harg5 : arg5.IsWhole) (arg6 : Memref sig .tc .vmem S1x2 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 : Vec F S1x1x256x1024 .f32) (x1 : Vec F S1x1x256x1024 .f32) (x2 : Vec F S1x2x256x1024 .f32) (x3 : Vec F S1x2x256x1024 .f32) (xs0 : Vec F S1x1 .f32) (xs1 : Vec F S1x1 .f32) :
    sout0_C_0 c i arg2 harg2 arg3 harg3 arg4 harg4 arg5 harg5 arg6 harg6 arg7 harg7 arg8 harg8 hc0 hc1 x0 x1 x2 x3 xs0 xs1 = k0_pay1 (k0_pay5 x2 x3) xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2]
  simp only [View.readAt_eq_ld, harg2.read_unread, harg3.read_unread, harg4.read_unread, harg5.read_unread, harg7.read_unread, harg8.read_unread,
    View.ld_unit_zero (S := S1x1) hz2, View.ld_unit_zero (S := S1x2x256x1024) hz4, View.ld_unit_zero (S := S1x1x256x1024) hz4]

theorem sout_C_1 (c : Dev nD) (i : grid0.Coords) (arg2 : Memref sig .tc .vmem S1x1x256x1024 .f32) (harg2 : arg2.IsWhole) (arg3 : Memref sig .tc .vmem S1x1x256x1024 .f32) (harg3 : arg3.IsWhole) (arg4 : Memref sig .tc .vmem S1x2x256x1024 .f32) (harg4 : arg4.IsWhole) (arg5 : Memref sig .tc .vmem S1x2x256x1024 .f32) (harg5 : arg5.IsWhole) (arg6 : Memref sig .tc .vmem S1x2 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 : Vec F S1x1x256x1024 .f32) (x1 : Vec F S1x1x256x1024 .f32) (x2 : Vec F S1x2x256x1024 .f32) (x3 : Vec F S1x2x256x1024 .f32) (xs0 : Vec F S1x1 .f32) (xs1 : Vec F S1x1 .f32) :
    sout0_C_1 c i arg2 harg2 arg3 harg3 arg4 harg4 arg5 harg5 arg6 harg6 arg7 harg7 arg8 harg8 hc0 hc1 x0 x1 x2 x3 xs0 xs1 = k0_pay2 (k0_pay6 x0 x1) xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2]
  simp only [View.readAt_eq_ld, harg2.read_unread, harg3.read_unread, harg4.read_unread, harg5.read_unread, harg7.read_unread, harg8.read_unread,
    View.ld_unit_zero (S := S1x1) hz2, View.ld_unit_zero (S := S1x2x256x1024) hz4, View.ld_unit_zero (S := S1x1x256x1024) hz4]

theorem sout_A_0 (c : Dev nD) (i : grid0.Coords) (arg2 : Memref sig .tc .vmem S1x1x256x1024 .f32) (harg2 : arg2.IsWhole) (arg3 : Memref sig .tc .vmem S1x1x256x1024 .f32) (harg3 : arg3.IsWhole) (arg4 : Memref sig .tc .vmem S1x2x256x1024 .f32) (harg4 : arg4.IsWhole) (arg5 : Memref sig .tc .vmem S1x2x256x1024 .f32) (harg5 : arg5.IsWhole) (arg6 : Memref sig .tc .vmem S1x2 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i) (x0 : Vec F S1x1x256x1024 .f32) (x1 : Vec F S1x1x256x1024 .f32) (x2 : Vec F S1x2x256x1024 .f32) (x3 : Vec F S1x2x256x1024 .f32) :
    sout0_A_0 c i arg2 harg2 arg3 harg3 arg4 harg4 arg5 harg5 arg6 harg6 arg7 harg7 arg8 harg8 hc0 hc1 x0 x1 x2 x3 = k0_pay1 (k0_pay5 x2 x3) k0_pay3 := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread,
    View.ld_unit_zero (S := S1x1) hz2, View.ld_unit_zero (S := S1x2x256x1024) hz4, View.ld_unit_zero (S := S1x1x256x1024) hz4]

theorem sout_A_1 (c : Dev nD) (i : grid0.Coords) (arg2 : Memref sig .tc .vmem S1x1x256x1024 .f32) (harg2 : arg2.IsWhole) (arg3 : Memref sig .tc .vmem S1x1x256x1024 .f32) (harg3 : arg3.IsWhole) (arg4 : Memref sig .tc .vmem S1x2x256x1024 .f32) (harg4 : arg4.IsWhole) (arg5 : Memref sig .tc .vmem S1x2x256x1024 .f32) (harg5 : arg5.IsWhole) (arg6 : Memref sig .tc .vmem S1x2 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i) (x0 : Vec F S1x1x256x1024 .f32) (x1 : Vec F S1x1x256x1024 .f32) (x2 : Vec F S1x2x256x1024 .f32) (x3 : Vec F S1x2x256x1024 .f32) :
    sout0_A_1 c i arg2 harg2 arg3 harg3 arg4 harg4 arg5 harg5 arg6 harg6 arg7 harg7 arg8 harg8 hc0 hc1 x0 x1 x2 x3 = k0_pay2 (k0_pay6 x0 x1) k0_pay4 := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread,
    View.ld_unit_zero (S := S1x1) hz2, View.ld_unit_zero (S := S1x2x256x1024) hz4, View.ld_unit_zero (S := S1x1x256x1024) hz4]

/-- The last point copies the two running totals into the two elements of the output block: a store of the first
    at column 0, then of the second at column 1. -/
theorem out_C_4 (c : Dev nD) (i : grid0.Coords) (arg2 : Memref sig .tc .vmem S1x1x256x1024 .f32) (harg2 : arg2.IsWhole) (arg3 : Memref sig .tc .vmem S1x1x256x1024 .f32) (harg3 : arg3.IsWhole) (arg4 : Memref sig .tc .vmem S1x2x256x1024 .f32) (harg4 : arg4.IsWhole) (arg5 : Memref sig .tc .vmem S1x2x256x1024 .f32) (harg5 : arg5.IsWhole) (arg6 : Memref sig .tc .vmem S1x2 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 : Vec F S1x1x256x1024 .f32) (x1 : Vec F S1x1x256x1024 .f32) (x2 : Vec F S1x2x256x1024 .f32) (x3 : Vec F S1x2x256x1024 .f32) (xs0 : Vec F S1x1 .f32) (xs1 : Vec F S1x1 .f32) :
    out0_C_4 c i arg2 harg2 arg3 harg3 arg4 harg4 arg5 harg5 arg6 harg6 arg7 harg7 arg8 harg8 hc0 hc1 x0 x1 x2 x3 xs0 xs1
      = View.canon [(⟨Rect.unit (s := S1x2) ![0, 1] ![1, 1] inb_S1x2_S1x1_0_1, k0_pay2 (k0_pay6 x0 x1) xs1⟩ : View.Piece (Elt F) S1x2 .f32),
          ⟨Rect.unit (s := S1x2) ![0, 0] ![1, 1] inb_S1x2_S1x1_0_0, k0_pay1 (k0_pay5 x2 x3) xs0⟩] := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  simp only [View.readCov_unit_zero (S := S1x1) _ hz2, View.readAt_eq_ld, harg2.read_unread, harg3.read_unread, harg4.read_unread, harg5.read_unread,
    harg7.read_unread, harg8.read_unread,
    View.ld_unit_zero (S := S1x1) hz2, View.ld_unit_zero (S := S1x2x256x1024) hz4, View.ld_unit_zero (S := S1x1x256x1024) hz4]

/-- Two stores of one element each into a [1,2] block, column 1 last: column 1 reads the last store, … -/
theorem canon2_at1 (a b : S1x1.Idx → Elt F .f32) :
    View.canon [(⟨Rect.unit (s := S1x2) ![0, 1] ![1, 1] inb_S1x2_S1x1_0_1, a⟩ : View.Piece (Elt F) S1x2 .f32),
      ⟨Rect.unit (s := S1x2) ![0, 0] ![1, 1] inb_S1x2_S1x1_0_0, b⟩] (ValueIdx.ix2 (0 : Fin 1) (1 : Fin 2)) = a (ValueIdx.ix2 (0 : Fin 1) (0 : Fin 1)) := by
  have e : (ValueIdx.ix2 (0 : Fin 1) (1 : Fin 2) : S1x2.Idx)
      = (Rect.unit (s := S1x2) ![0, 1] ![1, 1] inb_S1x2_S1x1_0_1).emb (ValueIdx.ix2 (0 : Fin 1) (0 : Fin 1)) := by
    funext d; apply Fin.ext; match d with | ⟨0, _⟩ => rfl | ⟨1, _⟩ => rfl
  rw [e, View.canon_cons_emb]

/-- … and column 0 the store before it. -/
theorem canon2_at0 (a b : S1x1.Idx → Elt F .f32) :
    View.canon [(⟨Rect.unit (s := S1x2) ![0, 1] ![1, 1] inb_S1x2_S1x1_0_1, a⟩ : View.Piece (Elt F) S1x2 .f32),
      ⟨Rect.unit (s := S1x2) ![0, 0] ![1, 1] inb_S1x2_S1x1_0_0, b⟩] (ValueIdx.ix2 (0 : Fin 1) (0 : Fin 2)) = b (ValueIdx.ix2 (0 : Fin 1) (0 : Fin 1)) := by
  have hm : (ValueIdx.ix2 (0 : Fin 1) (0 : Fin 2) : S1x2.Idx) ∉ (Rect.unit (s := S1x2) ![0, 1] ![1, 1] inb_S1x2_S1x1_0_1).set := by
    rw [Rect.mem_set_unit]; intro h; have := (h 1).1; exact absurd this (by decide)
  have e : (ValueIdx.ix2 (0 : Fin 1) (0 : Fin 2) : S1x2.Idx)
      = (Rect.unit (s := S1x2) ![0, 0] ![1, 1] inb_S1x2_S1x1_0_0).emb (ValueIdx.ix2 (0 : Fin 1) (0 : Fin 1)) := by
    funext d; apply Fin.ext; match d with | ⟨0, _⟩ => rfl | ⟨1, _⟩ => rfl
  rw [View.canon_cons_of_not_mem _ _ hm, e, View.canon_cons_emb]

end Cert.KernelIdeal.Pieces
end
-- ==== Proof.KerAccum.lean ====
/-
  The two running totals after every grid point, in closed form: the body's per-point update folded from the first
  point (which starts from the stored zeros) up to the point, by induction on the point; and the output block after the
  last point, whose two elements are the two totals.
-/
import proofs.«155366_j63754494541943_1_alg».proof.Proof.KerPieces

noncomputable section

namespace Cert.KernelIdeal.Accum

open Cert.KernelIdeal Cert.KernelIdeal.Gen Cert.KernelIdeal.Pieces Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The first running total after point `n`: the loss terms of blocks 0 … n added, in point order, to the zero. -/
def tot0 (c : Dev nD) : (n : ℕ) → n < cfg0.N → Vec F S1x1 .f32
  | 0, h => k0_pay1 (k0_pay5 (iblk m c 2 ⟨0, h⟩) (iblk m c 3 ⟨0, h⟩)) k0_pay3
  | n + 1, h => k0_pay1 (k0_pay5 (iblk m c 2 ⟨n + 1, h⟩) (iblk m c 3 ⟨n + 1, h⟩)) (tot0 c n (Nat.lt_of_succ_lt h))

/-- The second running total after point `n`: the mask · scale sums of blocks 0 … n added, in point order, to the zero. -/
def tot1 (c : Dev nD) : (n : ℕ) → n < cfg0.N → Vec F S1x1 .f32
  | 0, h => k0_pay2 (k0_pay6 (iblk m c 0 ⟨0, h⟩) (iblk m c 1 ⟨0, h⟩)) k0_pay4
  | n + 1, h => k0_pay2 (k0_pay6 (iblk m c 0 ⟨n + 1, h⟩) (iblk m c 1 ⟨n + 1, h⟩)) (tot1 c n (Nat.lt_of_succ_lt h))

/-- What the two scratch buffers hold after point `n` are the two running totals. -/
theorem outsAt_tot (c : Dev nD) : ∀ (n : ℕ) (h : n < cfg0.N),
    (outsAt0 m c n h).2.1 = tot0 m c n h ∧ (outsAt0 m c n h).2.2 = tot1 m c n h
  | 0, h => by
    rw [outsAt0_A m c ⟨0, h⟩ rfl (by show ¬0 % 64 = 63; decide)]
    dsimp only
    rw [sout_A_0, sout_A_1]
    exact ⟨rfl, rfl⟩
  | n + 1, h => by
    have hN : cfg0.N = 64 := N_0
    have ih := outsAt_tot c n (Nat.lt_of_succ_lt h)
    have h0 : ¬(⟨n + 1, h⟩ : Fin cfg0.N).val % 64 = 0 := by dsimp only; omega
    by_cases h1 : (⟨n + 1, h⟩ : Fin cfg0.N).val % 64 = 63
    · rw [outsAt0_C m c ⟨n + 1, h⟩ h0 h1]
      dsimp only
      rw [sout_C_0, sout_C_1]
      exact ⟨congrArg (k0_pay1 _) ih.1, congrArg (k0_pay2 _) ih.2⟩
    · rw [outsAt0_B m c ⟨n + 1, h⟩ h0 h1]
      dsimp only
      rw [sout_B_0, sout_B_1]
      exact ⟨congrArg (k0_pay1 _) ih.1, congrArg (k0_pay2 _) ih.2⟩

/-- The last grid point. -/
abbrev tLast : Fin cfg0.N := ⟨63, by rw [show cfg0.N = 64 from N_0]; decide⟩

/-- The output block after the last point: column 0 holds the first total, column 1 the second. -/
theorem outsAt_last (c : Dev nD) :
    (outsAt0 m c 63 tLast.isLt).1
      = View.canon [(⟨Rect.unit (s := S1x2) ![0, 1] ![1, 1] inb_S1x2_S1x1_0_1, tot1 m c 63 tLast.isLt⟩ : View.Piece (Elt F) S1x2 .f32),
          ⟨Rect.unit (s := S1x2) ![0, 0] ![1, 1] inb_S1x2_S1x1_0_0, tot0 m c 63 tLast.isLt⟩] := by
  have hN : cfg0.N = 64 := N_0
  have ih := outsAt_tot m c 62 (by omega)
  rw [outsAt0_C m c tLast (by show ¬63 % 64 = 0; decide) (by show 63 % 64 = 63; decide)]
  dsimp only
  rw [out_C_4]
  rw [show (outsAt0 m c (63 - 1) _).2.1 = tot0 m c 62 _ from ih.1, show (outsAt0 m c (63 - 1) _).2.2 = tot1 m c 62 _ from ih.2]
  rfl

end Cert.KernelIdeal.Accum

end
-- ==== Proof.KerFinal.lean ====
/-
  The kernel program's result from the frame run: the one write-back (after the last grid point) puts the two running
  totals into the two elements of the [1,2] result array, and the host operations after the region read them out, divide
  the first by the pixel count and multiply by the second.
-/
import proofs.«155366_j63754494541943_1_alg».proof.Proof.KerAccum
import Idealize.ShloMosaic.Lib.StableHlo.Run

noncomputable section

namespace Cert.KernelIdeal.Final

open Cert.KernelIdeal Cert.KernelIdeal.Gen Cert.KernelIdeal.Pieces Cert.KernelIdeal.Accum Idealize.ShloMosaic Idealize.ShloMosaic.TcCoe Idealize.SL.Sem
open Idealize.ShloMosaic.Pipeline (Dat)
open Idealize.ShloMosaic.StableHlo

variable {F : FTy → Type} [FloatOps F]
variable (m : (ℓ : Loc nD τ sig) → Buf (Elt F) ℓ) (ρ : Dev nD → PrngReg)

/-- The result array after the run: column 0 the first total after the last point, column 1 the second. -/
def outArr (c : Dev nD) : Buf (Elt F) ((c : Thread nD τ).loc main_v0) :=
  View.canon [(⟨Rect.unit (s := S1x2) ![0, 1] ![1, 1] inb_S1x2_S1x1_0_1, tot1 m c 63 tLast.isLt⟩ : View.Piece (Elt F) S1x2 .f32),
    ⟨Rect.unit (s := S1x2) ![0, 0] ![1, 1] inb_S1x2_S1x1_0_0, tot0 m c 63 tLast.isLt⟩]

/-- The one write-back, at the last point, writes it: block (0, 0) of the [1,2] array is the whole array. -/
theorem flushed_eq (c : Dev nD) (t : Fin cfg0.N) (hf : (cfg0.win 4).flush t = true) :
    (dats m 0 c).flushed 4 t = ((cfg0.win 4).blk t).view.read (Elt F) (outArr m c) := by
  have hN : cfg0.N = 64 := N_0
  have h3 : t.val = 63 := by have := (flush0_4 t).mp hf; have := t.isLt; omega
  obtain rfl : t = tLast := Fin.ext h3
  show (cfg0.win 4).cut (grid0.coords tLast) ((dats m 0 c).after 4 tLast) = _
  rw [after0_4, outsAt_last]
  have hz' : (fun a => win0_4.index tLast a * main_v0.ty.shape.size a) = fun _ => 0 := funext fun a => by fin_cases a <;> decide
  exact (Memref.read_access_unit_zero (Elt F) main_v0 hz' (fun a => by rw [congrFun hz' a]; simp) (outArr m c)).symm

/-- So the result array ends holding the two totals (the last point's block covers it). -/
theorem final_o (c : Dev nD) : (dats m 0 c).arrAt 4 cfg0.N = outArr m c :=
  (dats m 0 c).arrAt_eq_of_cover 4 (outArr m c) (flushed_eq m c) fun i =>
    ⟨tLast, (flush0_4 tLast).mpr rfl, by
      show i ∈ ((View.whole main_v0).slice (win0_4.rect tLast)).set
      rw [View.set_slice_whole, Rect.mem_set_unit]
      intro a
      have h0 : (i 0 : Nat) < 1 := (i 0).isLt
      have h1 : (i 1 : Nat) < 2 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 2 from by decide +kernel]; omega⟩

/-- The host operations after the region, as one function of the result array: element (0, 0) divided by the pixel
    count 2^24, times element (0, 1). -/
def tailVal (o : (⟨S1x2, .f32⟩ : BufTy).Contents (Elt F)) : (⟨S_, .f32⟩ : BufTy).Contents (Elt F) :=
  mulf (Host.divf (shapeCast S_ (extractStridedSlice S1x1 ![0, 0] o slices_S1x2_S1x1_0_0) shapeCasts_S1x1_S_) (constant S_ .f32 0x4B800000#32))
    (shapeCast S_ (extractStridedSlice S1x1 ![0, 1] o slices_S1x2_S1x1_0_1) shapeCasts_S1x1_S_)

/-- What the program's result buffer holds after the host operations that follow the region. -/
theorem tail_eq (c : Dev nD) :
    Pipeline.afterTail₀ cfgs (dats m) 0 (V0 m) [hostOps1] c main_v6 = tailVal (outArr m c) := by
  unfold Pipeline.afterTail₀
  show StableHlo.after hostOps1 _ (Proc.devRef .tc main_v6) = _
  after_results
  rw [show Pipeline.withArrays (cfgs 0).spec c (V0 m c) (fun w => (dats m 0 c).arrAt w (cfgs 0).N) (Proc.devRef .tc main_v0) = outArr m c from
      (Pipeline.withArrays_arr spec0 launch0.win.arr_inj c _ _ 4).trans (final_o m c)]
  rfl

/-- The run, read: the result buffer at the tail of the two totals, the arguments unchanged. -/
theorem run : θ_run defs (onTc (τ := τ) (main (F := F))) ⟨m, fun _ => 0, ρ⟩ fun r => ∀ c : Dev nD,
      r.2.mem ((c.tc : Thread nD τ).loc main_v6) = tailVal (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v6 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end Cert.KernelIdeal.Final

end
-- ==== Proof.KerPayload.lean ====
/-
  The kernel body's arithmetic at the ideal values, read at the one index of each [1,1] result.

  Per grid point the body holds a [1,2,256,1024] block of logits and of targets and a [1,1,256,1024] block of mask and of
  scale. It leaves, added to the first running total, the sum over the block's 256 × 1024 pixels of the pixel's loss term
  (`pixK`: the logistic of both logits, their maximum from -∞, the log-sum-exp, the targets' cross entropy, negated), and,
  added to the second, the sum over the same pixels of mask · scale; the first point starts both totals from zero.
-/
import proofs.«155366_j63754494541943_1_alg».proof.Proof.Gen.KernelIdeal.Skeleton
import proofs.«155366_j63754494541943_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-- The zero the first point stores into the first running total. -/
theorem pay3_apply (j : S1x1.Idx) : k0_pay3 (F := Ideal) j = 0 := by
  unfold k0_pay3
  rw [shapeCast_self]
  exact Ideal.ofBits_zero_f32

/-- The zero the first point stores into the second running total. -/
theorem pay4_apply (j : S1x1.Idx) : k0_pay4 (F := Ideal) j = 0 := by
  unfold k0_pay4
  rw [shapeCast_self]
  exact Ideal.ofBits_zero_f32

/-- The first running total's update: what it held plus the block's term. -/
theorem pay1_apply (v30 : FVec Ideal S1x1 .f32) (v37 : Vec Ideal S1x1 .f32) (j : S1x1.Idx) :
    k0_pay1 (F := Ideal) v30 v37 j = v37 j + v30 j := by
  unfold k0_pay1
  rw [shapeCast_self]
  rfl

/-! ## The layout operations of the body at an index written by coordinates -/

section Layout
variable {α : Type}

/-- A [1,256,1024] vector viewed [1,1,256,1024] reads, at (u, k, r, w), the operand at (k, r, w). -/
theorem cast34_apply (x : S1x256x1024.Idx → α) (h : S1x256x1024.ShapeCasts S1x1x256x1024)
    (u k : Fin 1) (r : Fin 256) (w : Fin 1024) :
    shapeCast S1x1x256x1024 x h (ix4 u k r w) = x (ix3 k r w) :=
  shapeCast_abc_1abc_apply x h u k r w

/-- A [1,1,256,1024] vector viewed [1,1,1,256,1024] reads, at (u, a, b, r, w), the operand at (a, b, r, w). -/
theorem cast45_apply (x : S1x1x256x1024.Idx → α) (h : S1x1x256x1024.ShapeCasts S1x1x1x256x1024)
    (u a b : Fin 1) (r : Fin 256) (w : Fin 1024) :
    shapeCast S1x1x1x256x1024 x h (ix5 u a b r w) = x (ix4 a b r w) :=
  shapeCast_apply x h _ _ (by
    have hu : u.val = 0 := by omega
    rw [Shape.rowMajor_val_five, Shape.rowMajor_val_four]
    show ((a.val * 1 + b.val) * 256 + r.val) * 1024 + w.val
      = (((u.val * 1 + a.val) * 1 + b.val) * 256 + r.val) * 1024 + w.val
    rw [hu, Nat.zero_mul, Nat.zero_add])

/-- A [1,1,256,1024] vector broadcast to [1,2,256,1024] reads, at (u, k, r, w), the operand at (0, 0, r, w). -/
theorem bcast_apply (x : S1x1x256x1024.Idx → α) (h : S1x1x256x1024.Broadcasts S1x2x256x1024)
    (u : Fin 1) (k : Fin 2) (r : Fin 256) (w : Fin 1024) :
    broadcastTo S1x2x256x1024 x h (ix4 u k r w) = x (ix4 (0 : Fin 1) (0 : Fin 1) r w) :=
  broadcastTo_apply x h _ _ (fun a => match a with
    | ⟨0, _⟩ => rfl
    | ⟨1, _⟩ => rfl
    | ⟨2, _⟩ => by show r.val = if (256 : Nat) = 1 then 0 else r.val; rw [if_neg (by decide)]
    | ⟨3, _⟩ => by show w.val = if (1024 : Nat) = 1 then 0 else w.val; rw [if_neg (by decide)])

end Layout

/-! ## The reductions of the body at an index written by coordinates -/

/-- The index (0, k, r, w) the reduction over the channel axis reads at (u, r, w). -/
theorem lift_eq (h : S1x2x256x1024.Reduces [1] S1x256x1024) (u : Fin 1) (r : Fin 256) (w : Fin 1024) (k : Fin 2) :
    h.lift (ix3 u r w) k = ix4 (0 : Fin 1) k r w := by
  funext a
  refine Fin.ext ?_
  match a with
  | ⟨0, _⟩ => show u.val = 0; omega
  | ⟨1, _⟩ => rfl
  | ⟨2, _⟩ => rfl
  | ⟨3, _⟩ => rfl

/-- The sum over the channel axis, at (u, r, w): the sum over the two channels. -/
theorem sumChan_apply (src : FVec Ideal S1x2x256x1024 .f32) (h : S1x2x256x1024.Reduces [1] S1x256x1024)
    (hφ : FKind.Formats .f32) (hacc : (0x00000000#32 : BitVec 32) = FKind.add.neutral .f32 hφ)
    (u : Fin 1) (r : Fin 256) (w : Fin 1024) :
    multiReduction .add [1] S1x256x1024 src 0x00000000#32 h hφ hacc (ix3 u r w)
      = ∑ k : Fin 2, src (ix4 (0 : Fin 1) k r w) := by
  refine (Ideal.multiReduction_add_single src _ h hφ hacc _).trans ?_
  show ∑ k : Fin 2, src (h.lift (ix3 u r w) k) = _
  exact Finset.sum_congr rfl fun k _ => congrArg src (lift_eq h u r w k)

/-- The maximum over the channel axis from -∞, at (u, r, w): the running maximum over the two channels. -/
theorem maxChan_apply (src : FVec Ideal S1x2x256x1024 .f32) (h : S1x2x256x1024.Reduces [1] S1x256x1024)
    (hφ : FKind.Formats .f32) (hacc : (0xFF800000#32 : BitVec 32) = FKind.maximumf.neutral .f32 hφ)
    (u : Fin 1) (r : Fin 256) (w : Fin 1024) :
    multiReduction .maximumf [1] S1x256x1024 src 0xFF800000#32 h hφ hacc (ix3 u r w)
      = Cert.XYLoss.chanMax (fun k : Fin 2 => src (ix4 (0 : Fin 1) k r w)) := by
  refine (Ideal.multiReduction_maximumf_single src _ h hφ hacc _).trans ?_
  unfold Cert.XYLoss.chanMax
  show (Finset.univ : Finset (Fin 2)).fold max (Ideal.ofBits .f32 0xFF800000#32) (src ∘ h.lift (ix3 u r w)) = _
  exact congrArg (fun f : Fin 2 → EReal => (Finset.univ : Finset (Fin 2)).fold max (Ideal.ofBits .f32 0xFF800000#32) f)
    (funext fun k => congrArg src (lift_eq h u r w k))

/-- The sum over every axis of a [1,1,1,256,1024] vector into [1]: the sum over the 256 × 1024 pixels. -/
theorem sumAll_apply (src : FVec Ideal S1x1x1x256x1024 .f32) (h : S1x1x1x256x1024.Reduces [1, 2, 3, 4] S1)
    (hφ : FKind.Formats .f32) (hacc : (0x00000000#32 : BitVec 32) = FKind.add.neutral .f32 hφ) (j : S1.Idx) :
    multiReduction .add [1, 2, 3, 4] S1 src 0x00000000#32 h hφ hacc j
      = ∑ r : Fin 256, ∑ w : Fin 1024, src (ix5 (0 : Fin 1) (0 : Fin 1) (0 : Fin 1) r w) := by
  refine (Ideal.multiReduction_add_total src _ h (by intro b; fin_cases b; rfl) hφ hacc j).trans ?_
  rw [Cert.XYLoss.sum_idx5, Cert.XYLoss.sum_fin1, Cert.XYLoss.sum_fin1, Cert.XYLoss.sum_fin1]

/-- The [1,1,256,1024] view of the sum over the channel axis, at (u, k, r, w): the sum over the two channels. -/
theorem sumView_apply (src : FVec Ideal S1x2x256x1024 .f32) (h : S1x2x256x1024.Reduces [1] S1x256x1024)
    (hφ : FKind.Formats .f32) (hacc : (0x00000000#32 : BitVec 32) = FKind.add.neutral .f32 hφ)
    (h' : S1x256x1024.ShapeCasts S1x1x256x1024) (u k : Fin 1) (r : Fin 256) (w : Fin 1024) :
    shapeCast S1x1x256x1024 (multiReduction .add [1] S1x256x1024 src 0x00000000#32 h hφ hacc) h' (ix4 u k r w)
      = ∑ q : Fin 2, src (ix4 (0 : Fin 1) q r w) :=
  (cast34_apply _ h' u k r w).trans (sumChan_apply src h hφ hacc k r w)

/-- The [1,1,256,1024] view of the maximum over the channel axis, at (u, k, r, w): the running maximum over the two channels. -/
theorem maxView_apply (src : FVec Ideal S1x2x256x1024 .f32) (h : S1x2x256x1024.Reduces [1] S1x256x1024)
    (hφ : FKind.Formats .f32) (hacc : (0xFF800000#32 : BitVec 32) = FKind.maximumf.neutral .f32 hφ)
    (h' : S1x256x1024.ShapeCasts S1x1x256x1024) (u k : Fin 1) (r : Fin 256) (w : Fin 1024) :
    shapeCast S1x1x256x1024 (multiReduction .maximumf [1] S1x256x1024 src 0xFF800000#32 h hφ hacc) h' (ix4 u k r w)
      = Cert.XYLoss.chanMax (fun q : Fin 2 => src (ix4 (0 : Fin 1) q r w)) :=
  (cast34_apply _ h' u k r w).trans (maxChan_apply src h hφ hacc k r w)

/-- The scalar read out of the one-element [1,1,1,1,1] view of a [1] vector, broadcast to [1,1]: the vector's one element. -/
theorem tail_apply (v : FVec Ideal S1 .f32) (h : S1.ShapeCasts S1x1x1x1x1)
    (hp : ∀ a, (![0, 0, 0, 0, 0] : Fin 5 → Nat) a < S1x1x1x1x1.size a) (j : S1x1.Idx) :
    broadcast S1x1 (extractAt ![0, 0, 0, 0, 0] (shapeCast S1x1x1x1x1 v h) hp) j = v (ix1 (0 : Fin 1)) := by
  rw [broadcast_apply]
  unfold extractAt
  refine shapeCast_apply v h _ _ ?_
  rw [Shape.rowMajor_val_five, Shape.rowMajor_val_one]
  rfl

/-! ## The block's loss term, value by value

The body's intermediate vectors, named: the logistic of the logits (`sg`), the channel maximum (`mx`), the sum of the
exponentials (`se`), the log-sum-exp with the maximum put back (`lse`), the targets' weighted sum (`ws`). Each is read at
a pixel (u, k, r, w) of its [1,1,256,1024] view as the corresponding piece of `pixK`. -/

section Pixel
variable (x2 x3 : Vec Ideal S1x2x256x1024 .f32)

/-- The logistic of the logits. -/
def sg : FVec Ideal S1x2x256x1024 .f32 := logistic x2

theorem sg_apply (i : S1x2x256x1024.Idx) : sg x2 i = Ideal.logistic (x2 i) := rfl

/-- The maximum over the two channels of the logistic, from -∞, viewed [1,1,256,1024]. -/
def mx : FVec Ideal S1x1x256x1024 .f32 :=
  shapeCast S1x1x256x1024
    (multiReduction .maximumf [1] S1x256x1024 (sg x2) 0xFF800000#32 reduces_S1x2x256x1024_S1x256x1024 (.inl rfl) rfl)
    shapeCasts_S1x256x1024_S1x1x256x1024

theorem mx_apply (u k : Fin 1) (r : Fin 256) (w : Fin 1024) :
    mx x2 (ix4 u k r w) = Cert.XYLoss.chanMax (fun q : Fin 2 => Ideal.logistic (x2 (ix4 (0 : Fin 1) q r w))) :=
  maxView_apply (sg x2) _ _ _ _ u k r w

/-- The sum over the two channels of the exponential of the logistic less the maximum, viewed [1,1,256,1024]. -/
def se : FVec Ideal S1x1x256x1024 .f32 :=
  shapeCast S1x1x256x1024
    (multiReduction .add [1] S1x256x1024
      (exp (subf (sg x2) (broadcastTo S1x2x256x1024 (mx x2) broadcasts_S1x1x256x1024_S1x2x256x1024)))
      0x00000000#32 reduces_S1x2x256x1024_S1x256x1024 (.inl rfl) rfl)
    shapeCasts_S1x256x1024_S1x1x256x1024

theorem se_apply (u k : Fin 1) (r : Fin 256) (w : Fin 1024) :
    se x2 (ix4 u k r w)
      = ∑ q : Fin 2, Ideal.exp (Ideal.logistic (x2 (ix4 (0 : Fin 1) q r w))
          - Cert.XYLoss.chanMax (fun j : Fin 2 => Ideal.logistic (x2 (ix4 (0 : Fin 1) j r w)))) := by
  refine (sumView_apply _ _ _ _ _ u k r w).trans ?_
  refine Finset.sum_congr rfl fun q _ => ?_
  show Ideal.exp (sg x2 (ix4 (0 : Fin 1) q r w)
      - broadcastTo S1x2x256x1024 (mx x2) broadcasts_S1x1x256x1024_S1x2x256x1024 (ix4 (0 : Fin 1) q r w)) = _
  rw [bcast_apply, mx_apply, sg_apply]

/-- The logarithm of that sum plus the maximum. -/
def lse : FVec Ideal S1x1x256x1024 .f32 := addf (log (se x2)) (mx x2)

theorem lse_apply (u k : Fin 1) (r : Fin 256) (w : Fin 1024) :
    lse x2 (ix4 u k r w)
      = Ideal.log (∑ q : Fin 2, Ideal.exp (Ideal.logistic (x2 (ix4 (0 : Fin 1) q r w))
            - Cert.XYLoss.chanMax (fun j : Fin 2 => Ideal.logistic (x2 (ix4 (0 : Fin 1) j r w)))))
          + Cert.XYLoss.chanMax (fun j : Fin 2 => Ideal.logistic (x2 (ix4 (0 : Fin 1) j r w))) := by
  show Ideal.log (se x2 (ix4 u k r w)) + mx x2 (ix4 u k r w) = _
  rw [se_apply, mx_apply]

/-- The sum over the two channels of target · (logistic - log-sum-exp), viewed [1,1,256,1024]. -/
def ws : FVec Ideal S1x1x256x1024 .f32 :=
  shapeCast S1x1x256x1024
    (multiReduction .add [1] S1x256x1024
      (mulf x3 (subf (sg x2) (broadcastTo S1x2x256x1024 (lse x2) broadcasts_S1x1x256x1024_S1x2x256x1024)))
      0x00000000#32 reduces_S1x2x256x1024_S1x256x1024 (.inl rfl) rfl)
    shapeCasts_S1x256x1024_S1x1x256x1024

theorem ws_apply (u k : Fin 1) (r : Fin 256) (w : Fin 1024) :
    ws x2 x3 (ix4 u k r w)
      = ∑ q : Fin 2, x3 (ix4 (0 : Fin 1) q r w) * (Ideal.logistic (x2 (ix4 (0 : Fin 1) q r w))
          - (Ideal.log (∑ p : Fin 2, Ideal.exp (Ideal.logistic (x2 (ix4 (0 : Fin 1) p r w))
                - Cert.XYLoss.chanMax (fun j : Fin 2 => Ideal.logistic (x2 (ix4 (0 : Fin 1) j r w)))))
              + Cert.XYLoss.chanMax (fun j : Fin 2 => Ideal.logistic (x2 (ix4 (0 : Fin 1) j r w))))) := by
  refine (sumView_apply _ _ _ _ _ u k r w).trans ?_
  refine Finset.sum_congr rfl fun q _ => ?_
  show x3 (ix4 (0 : Fin 1) q r w) * (sg x2 (ix4 (0 : Fin 1) q r w)
      - broadcastTo S1x2x256x1024 (lse x2) broadcasts_S1x1x256x1024_S1x2x256x1024 (ix4 (0 : Fin 1) q r w)) = _
  rw [bcast_apply, lse_apply, sg_apply]

/-- Zero less that sum, viewed [1,1,1,256,1024]: the vector the body sums over the block's pixels. -/
def nl : FVec Ideal S1x1x1x256x1024 .f32 :=
  shapeCast S1x1x1x256x1024
    (subf (broadcast S1x1x256x1024 (Scalar.ofBits .f32 0x00000000#32)) (ws x2 x3))
    shapeCasts_S1x1x256x1024_S1x1x1x256x1024

theorem nl_apply (u a b : Fin 1) (r : Fin 256) (w : Fin 1024) :
    nl x2 x3 (ix5 u a b r w)
      = Cert.XYLoss.pixK (fun k : Fin 2 => x2 (ix4 (0 : Fin 1) k r w)) (fun k : Fin 2 => x3 (ix4 (0 : Fin 1) k r w)) := by
  refine (cast45_apply _ _ u a b r w).trans ?_
  show Ideal.ofBits .f32 0x00000000#32 - ws x2 x3 (ix4 a b r w) = _
  rw [Ideal.ofBits_zero_f32, zero_sub, ws_apply]
  rfl

/-- The body's payload is the total of `nl` read out as a scalar and broadcast. -/
theorem k0_pay5_eq :
    k0_pay5 (F := Ideal) x2 x3
      = broadcast S1x1 (extractAt ![0, 0, 0, 0, 0]
          (shapeCast S1x1x1x1x1
            (multiReduction .add [1, 2, 3, 4] S1 (nl x2 x3) 0x00000000#32 reduces_S1x1x1x256x1024_S1 (.inl rfl) rfl)
            shapeCasts_S1_S1x1x1x1x1)
          inpos_S1x1x1x1x1_p0_0_0_0_0) := rfl

end Pixel

/-- The block's loss term: the sum over its pixels of the pixel's term. -/
theorem pay5_apply (x2 x3 : Vec Ideal S1x2x256x1024 .f32) (j : S1x1.Idx) :
    k0_pay5 (F := Ideal) x2 x3 j
      = ∑ r : Fin 256, ∑ w : Fin 1024,
          Cert.XYLoss.pixK (fun k : Fin 2 => x2 (ix4 (0 : Fin 1) k r w)) (fun k : Fin 2 => x3 (ix4 (0 : Fin 1) k r w)) := by
  rw [k0_pay5_eq, tail_apply]
  refine (sumAll_apply _ _ _ _ _).trans ?_
  exact Finset.sum_congr rfl fun r _ => Finset.sum_congr rfl fun w _ => nl_apply x2 x3 0 0 0 r w

/-- The second running total's update: what it held plus the sum over the block's pixels of mask · scale. -/
theorem pay2_apply (x0 x1 : Vec Ideal S1x1x256x1024 .f32) (v42 : Vec Ideal S1x1 .f32) (j : S1x1.Idx) :
    k0_pay2 (F := Ideal) (k0_pay6 (F := Ideal) x0 x1) v42 j
      = v42 j + ∑ r : Fin 256, ∑ w : Fin 1024,
          x0 (ix4 (0 : Fin 1) (0 : Fin 1) r w) * x1 (ix4 (0 : Fin 1) (0 : Fin 1) r w) := by
  unfold k0_pay2 k0_pay6
  rw [shapeCast_self, addf_apply, tail_apply]
  refine congrArg (v42 j + ·) ?_
  refine (sumAll_apply _ _ _ _ _).trans ?_
  refine Finset.sum_congr rfl fun r _ => Finset.sum_congr rfl fun w _ => ?_
  exact (cast45_apply _ _ _ _ _ _ _).trans (mulf_apply _ _ _)

end Cert.KernelIdeal.PayValue

end
-- ==== Proof.KerSums.lean ====
/-
  The two running totals after the last grid point, at the ideal values, as sums over the argument arrays.

  Grid point `t` of the 16 × 4 grid stages, of each argument, batch `t / 4` and rows `256 · (t % 4) … + 255`: element
  (0, k, r, w) of a block is element (t / 4, k, 256 · (t % 4) + r, w) of its array. Each point adds its block's term to a
  running total, so after the last point the first total is the sum over all 64 blocks of the blocks' loss terms and the
  second the sum over all blocks of the blocks' mask · scale sums.
-/
import proofs.«155366_j63754494541943_1_alg».proof.Proof.KerAccum
import proofs.«155366_j63754494541943_1_alg».proof.Proof.KerPayload
import proofs.«155366_j63754494541943_1_alg».proof.Proof.Spec

noncomputable section

open scoped BigOperators

namespace Cert.KernelIdeal.Sums

open Cert.KernelIdeal Cert.KernelIdeal.Gen Cert.KernelIdeal.Accum Cert.KernelIdeal.PayValue Idealize.ShloMosaic Idealize.ShloMosaic.TcCoe
  Idealize.ShloMosaic.ValueIdx Idealize.SL.Sem
open Cert.XYLoss (pixK blockBatch blockRow)

variable (m : (ℓ : Loc nD τ sig) → Buf (Elt Ideal) ℓ)

/-- The four argument arrays of core `c`, as arrays of extended reals. -/
abbrev a0 (c : Dev nD) : Cert.XYLoss.A4.Idx → EReal := m ((c.tc : Thread nD τ).loc main_arg0)
abbrev a1 (c : Dev nD) : Cert.XYLoss.A4.Idx → EReal := m ((c.tc : Thread nD τ).loc main_arg1)
abbrev a2 (c : Dev nD) : Cert.XYLoss.P4.Idx → EReal := m ((c.tc : Thread nD τ).loc main_arg2)
abbrev a3 (c : Dev nD) : Cert.XYLoss.P4.Idx → EReal := m ((c.tc : Thread nD τ).loc main_arg3)

/-- A grid point as a number below 64. -/
abbrev pt (t : Fin cfg0.N) : Fin 64 := Fin.cast (show cfg0.N = 64 from N_0) t

/-! ## The windows' index maps, and the block reads -/

/-- Window 0's block index at every grid point: batch t / 4, row block t % 4 — decided over the grid. -/
theorem idx0 : ∀ t : Fin cfg0.N, win0_0.index t 0 = t.val / 4 ∧ win0_0.index t 1 = 0 ∧ win0_0.index t 2 = t.val % 4 ∧ win0_0.index t 3 = 0 :=
  (by decide +kernel : ∀ t : Fin grid0.N, _)

/-- Window 1's block index at every grid point: batch t / 4, row block t % 4 — decided over the grid. -/
theorem idx1 : ∀ t : Fin cfg0.N, win0_1.index t 0 = t.val / 4 ∧ win0_1.index t 1 = 0 ∧ win0_1.index t 2 = t.val % 4 ∧ win0_1.index t 3 = 0 :=
  (by decide +kernel : ∀ t : Fin grid0.N, _)

/-- Window 2's block index at every grid point: batch t / 4, row block t % 4 — decided over the grid. -/
theorem idx2 : ∀ t : Fin cfg0.N, win0_2.index t 0 = t.val / 4 ∧ win0_2.index t 1 = 0 ∧ win0_2.index t 2 = t.val % 4 ∧ win0_2.index t 3 = 0 :=
  (by decide +kernel : ∀ t : Fin grid0.N, _)

/-- Window 3's block index at every grid point: batch t / 4, row block t % 4 — decided over the grid. -/
theorem idx3 : ∀ t : Fin cfg0.N, win0_3.index t 0 = t.val / 4 ∧ win0_3.index t 1 = 0 ∧ win0_3.index t 2 = t.val % 4 ∧ win0_3.index t 3 = 0 :=
  (by decide +kernel : ∀ t : Fin grid0.N, _)

/-- Element (0, 0, r, w) of the mask's block at point `t`. -/
theorem iblk0_apply (c : Dev nD) (t : Fin cfg0.N) (r : Fin 256) (w : Fin 1024) :
    (iblk m c 0 t : Vec Ideal S1x1x256x1024 .f32) (ix4 (0 : Fin 1) (0 : Fin 1) r w)
      = a0 m c (ix4 (blockBatch (pt t)) (0 : Fin 1) (blockRow (pt t) r) w) := by
  have hN : cfg0.N = 64 := N_0
  have hi := idx0 t
  unfold iblk
  rw [View.read_apply]
  show V m c main_arg0 _ = _
  refine congrArg (m ((c.tc : Thread nD τ).loc main_arg0)) (funext fun a => Fin.ext ?_)
  match a with
  | ⟨0, _⟩ => show win0_0.index t 0 * 1 + 1 * 0 = t.val / 4; rw [hi.1]; omega
  | ⟨1, _⟩ => show win0_0.index t 1 * 1 + 1 * 0 = 0; rw [hi.2.1]
  | ⟨2, _⟩ => show win0_0.index t 2 * 256 + 1 * r.val = 256 * (t.val % 4) + r.val; rw [hi.2.2.1]; omega
  | ⟨3, _⟩ => show win0_0.index t 3 * 1024 + 1 * w.val = w.val; rw [hi.2.2.2]; omega

/-- Element (0, 0, r, w) of the scale's block at point `t`. -/
theorem iblk1_apply (c : Dev nD) (t : Fin cfg0.N) (r : Fin 256) (w : Fin 1024) :
    (iblk m c 1 t : Vec Ideal S1x1x256x1024 .f32) (ix4 (0 : Fin 1) (0 : Fin 1) r w)
      = a1 m c (ix4 (blockBatch (pt t)) (0 : Fin 1) (blockRow (pt t) r) w) := by
  have hN : cfg0.N = 64 := N_0
  have hi := idx1 t
  unfold iblk
  rw [View.read_apply]
  show V m c main_arg1 _ = _
  refine congrArg (m ((c.tc : Thread nD τ).loc main_arg1)) (funext fun a => Fin.ext ?_)
  match a with
  | ⟨0, _⟩ => show win0_1.index t 0 * 1 + 1 * 0 = t.val / 4; rw [hi.1]; omega
  | ⟨1, _⟩ => show win0_1.index t 1 * 1 + 1 * 0 = 0; rw [hi.2.1]
  | ⟨2, _⟩ => show win0_1.index t 2 * 256 + 1 * r.val = 256 * (t.val % 4) + r.val; rw [hi.2.2.1]; omega
  | ⟨3, _⟩ => show win0_1.index t 3 * 1024 + 1 * w.val = w.val; rw [hi.2.2.2]; omega

/-- Element (0, k, r, w) of the logits' block at point `t`. -/
theorem iblk2_apply (c : Dev nD) (t : Fin cfg0.N) (k : Fin 2) (r : Fin 256) (w : Fin 1024) :
    (iblk m c 2 t : Vec Ideal S1x2x256x1024 .f32) (ix4 (0 : Fin 1) k r w)
      = a2 m c (ix4 (blockBatch (pt t)) k (blockRow (pt t) r) w) := by
  have hN : cfg0.N = 64 := N_0
  have hi := idx2 t
  unfold iblk
  rw [View.read_apply]
  show V m c main_arg2 _ = _
  refine congrArg (m ((c.tc : Thread nD τ).loc main_arg2)) (funext fun a => Fin.ext ?_)
  match a with
  | ⟨0, _⟩ => show win0_2.index t 0 * 1 + 1 * 0 = t.val / 4; rw [hi.1]; omega
  | ⟨1, _⟩ => show win0_2.index t 1 * 2 + 1 * k.val = k.val; rw [hi.2.1]; omega
  | ⟨2, _⟩ => show win0_2.index t 2 * 256 + 1 * r.val = 256 * (t.val % 4) + r.val; rw [hi.2.2.1]; omega
  | ⟨3, _⟩ => show win0_2.index t 3 * 1024 + 1 * w.val = w.val; rw [hi.2.2.2]; omega

/-- Element (0, k, r, w) of the targets' block at point `t`. -/
theorem iblk3_apply (c : Dev nD) (t : Fin cfg0.N) (k : Fin 2) (r : Fin 256) (w : Fin 1024) :
    (iblk m c 3 t : Vec Ideal S1x2x256x1024 .f32) (ix4 (0 : Fin 1) k r w)
      = a3 m c (ix4 (blockBatch (pt t)) k (blockRow (pt t) r) w) := by
  have hN : cfg0.N = 64 := N_0
  have hi := idx3 t
  unfold iblk
  rw [View.read_apply]
  show V m c main_arg3 _ = _
  refine congrArg (m ((c.tc : Thread nD τ).loc main_arg3)) (funext fun a => Fin.ext ?_)
  match a with
  | ⟨0, _⟩ => show win0_3.index t 0 * 1 + 1 * 0 = t.val / 4; rw [hi.1]; omega
  | ⟨1, _⟩ => show win0_3.index t 1 * 2 + 1 * k.val = k.val; rw [hi.2.1]; omega
  | ⟨2, _⟩ => show win0_3.index t 2 * 256 + 1 * r.val = 256 * (t.val % 4) + r.val; rw [hi.2.2.1]; omega
  | ⟨3, _⟩ => show win0_3.index t 3 * 1024 + 1 * w.val = w.val; rw [hi.2.2.2]; omega

/-! ## The running totals as sums over the points so far -/

/-- Block `n`'s loss term, for any natural number `n` (zero from 64 on, where there is no block). -/
def blk0 (c : Dev nD) (n : ℕ) : EReal :=
  if h : n < 64 then
    ∑ r : Fin 256, ∑ w : Fin 1024,
      pixK (fun k => a2 m c (ix4 (blockBatch ⟨n, h⟩) k (blockRow ⟨n, h⟩ r) w))
        (fun k => a3 m c (ix4 (blockBatch ⟨n, h⟩) k (blockRow ⟨n, h⟩ r) w))
  else 0

/-- Block `n`'s mask · scale sum, for any natural number `n` (zero from 64 on). -/
def blk1 (c : Dev nD) (n : ℕ) : EReal :=
  if h : n < 64 then
    ∑ r : Fin 256, ∑ w : Fin 1024,
      a0 m c (ix4 (blockBatch ⟨n, h⟩) (0 : Fin 1) (blockRow ⟨n, h⟩ r) w)
        * a1 m c (ix4 (blockBatch ⟨n, h⟩) (0 : Fin 1) (blockRow ⟨n, h⟩ r) w)
  else 0

/-- What point `n` adds to the first total is block `n`'s loss term. -/
theorem term0 (c : Dev nD) (n : ℕ) (h : n < cfg0.N) (j : S1x1.Idx) :
    k0_pay5 (F := Ideal) (iblk m c 2 ⟨n, h⟩) (iblk m c 3 ⟨n, h⟩) j = blk0 m c n := by
  have hN : cfg0.N = 64 := N_0
  have h64 : n < 64 := by omega
  refine (pay5_apply (iblk m c 2 ⟨n, h⟩) (iblk m c 3 ⟨n, h⟩) j).trans ?_
  rw [blk0, dif_pos h64]
  refine Finset.sum_congr rfl fun r _ => Finset.sum_congr rfl fun w _ => ?_
  refine congrArg₂ pixK (funext fun k => ?_) (funext fun k => ?_)
  · exact iblk2_apply m c ⟨n, h⟩ k r w
  · exact iblk3_apply m c ⟨n, h⟩ k r w

/-- What point `n` adds to the second total is block `n`'s mask · scale sum. -/
theorem term1 (c : Dev nD) (n : ℕ) (h : n < cfg0.N) (v : Vec Ideal S1x1 .f32) (j : S1x1.Idx) :
    k0_pay2 (F := Ideal) (k0_pay6 (F := Ideal) (iblk m c 0 ⟨n, h⟩) (iblk m c 1 ⟨n, h⟩)) v j = v j + blk1 m c n := by
  have hN : cfg0.N = 64 := N_0
  have h64 : n < 64 := by omega
  refine (pay2_apply (iblk m c 0 ⟨n, h⟩) (iblk m c 1 ⟨n, h⟩) v j).trans ?_
  rw [blk1, dif_pos h64]
  refine congrArg (v j + ·) ?_
  refine Finset.sum_congr rfl fun r _ => Finset.sum_congr rfl fun w _ => ?_
  refine congrArg₂ (· * ·) ?_ ?_
  · exact iblk0_apply m c ⟨n, h⟩ r w
  · exact iblk1_apply m c ⟨n, h⟩ r w

/-- The first total after point `n` is the sum of the loss terms of blocks 0 … n. -/
theorem tot0_eq (c : Dev nD) : ∀ (n : ℕ) (h : n < cfg0.N) (j : S1x1.Idx),
    tot0 m c n h j = ∑ t ∈ Finset.range (n + 1), blk0 m c t
  | 0, h, j => by
    rw [Finset.sum_range_one]
    show k0_pay1 (F := Ideal) (k0_pay5 (F := Ideal) (iblk m c 2 ⟨0, h⟩) (iblk m c 3 ⟨0, h⟩)) (k0_pay3 (F := Ideal)) j = _
    refine (pay1_apply _ _ j).trans ?_
    rw [pay3_apply, zero_add]
    exact term0 m c 0 h j
  | n + 1, h, j => by
    rw [Finset.sum_range_succ, ← tot0_eq c n (Nat.lt_of_succ_lt h) j]
    show k0_pay1 (F := Ideal) (k0_pay5 (F := Ideal) (iblk m c 2 ⟨n + 1, h⟩) (iblk m c 3 ⟨n + 1, h⟩))
      (tot0 m c n (Nat.lt_of_succ_lt h)) j = _
    refine (pay1_apply _ _ j).trans ?_
    rw [term0 m c (n + 1) h j]

/-- The second total after point `n` is the sum of the mask · scale sums of blocks 0 … n. -/
theorem tot1_eq (c : Dev nD) : ∀ (n : ℕ) (h : n < cfg0.N) (j : S1x1.Idx),
    tot1 m c n h j = ∑ t ∈ Finset.range (n + 1), blk1 m c t
  | 0, h, j => by
    rw [Finset.sum_range_one]
    show k0_pay2 (F := Ideal) (k0_pay6 (F := Ideal) (iblk m c 0 ⟨0, h⟩) (iblk m c 1 ⟨0, h⟩)) (k0_pay4 (F := Ideal)) j = _
    refine (term1 m c 0 h _ j).trans ?_
    rw [pay4_apply, zero_add]
  | n + 1, h, j => by
    rw [Finset.sum_range_succ, ← tot1_eq c n (Nat.lt_of_succ_lt h) j]
    show k0_pay2 (F := Ideal) (k0_pay6 (F := Ideal) (iblk m c 0 ⟨n + 1, h⟩) (iblk m c 1 ⟨n + 1, h⟩))
      (tot1 m c n (Nat.lt_of_succ_lt h)) j = _
    exact term1 m c (n + 1) h _ j

/-- The first total after the last point: every block's loss term, summed. -/
theorem tot0_last (c : Dev nD) (j : S1x1.Idx) :
    tot0 m c 63 tLast.isLt j
      = ∑ n : Fin 64, ∑ r : Fin 256, ∑ w : Fin 1024,
          pixK (fun k => a2 m c (ix4 (blockBatch n) k (blockRow n r) w))
            (fun k => a3 m c (ix4 (blockBatch n) k (blockRow n r) w)) := by
  rw [tot0_eq m c 63 tLast.isLt j, Finset.sum_range]
  refine Finset.sum_congr rfl fun n _ => ?_
  rw [blk0, dif_pos n.isLt]

/-- The second total after the last point: every block's mask · scale sum, summed. -/
theorem tot1_last (c : Dev nD) (j : S1x1.Idx) :
    tot1 m c 63 tLast.isLt j
      = ∑ n : Fin 64, ∑ r : Fin 256, ∑ w : Fin 1024,
          a0 m c (ix4 (blockBatch n) (0 : Fin 1) (blockRow n r) w)
            * a1 m c (ix4 (blockBatch n) (0 : Fin 1) (blockRow n r) w) := by
  rw [tot1_eq m c 63 tLast.isLt j, Finset.sum_range]
  refine Finset.sum_congr rfl fun n _ => ?_
  rw [blk1, dif_pos n.isLt]

end Cert.KernelIdeal.Sums

end
-- ==== Proof.KerValue.lean ====
/-
  The kernel program's result at the ideal values: the host operations after the region divide element (0, 0) of the
  result array — the first running total after the last grid point — by the pixel count and multiply by element (0, 1),
  the second; with the totals as sums over the argument arrays this is `kerTotal`.
-/
import proofs.«155366_j63754494541943_1_alg».proof.Proof.KerFinal
import proofs.«155366_j63754494541943_1_alg».proof.Proof.KerSums
import proofs.«155366_j63754494541943_1_alg».proof.Proof.Spec
import Idealize.ShloMosaic.Lib.Pipeline.Value

noncomputable section

open scoped BigOperators

namespace Cert.KernelIdeal.KerValue

open Cert.KernelIdeal Cert.KernelIdeal.Gen Cert.KernelIdeal.Pieces Cert.KernelIdeal.Accum Cert.KernelIdeal.Final Cert.KernelIdeal.Sums
  Idealize.ShloMosaic Idealize.ShloMosaic.TcCoe Idealize.ShloMosaic.ValueIdx Idealize.SL.Sem

variable (m : (ℓ : Loc nD τ sig) → Buf (Elt Ideal) ℓ) (ρ : Dev nD → PrngReg)

/-- Element (0, 0) of the result array read through the slice and the cast to a scalar: the first total. -/
theorem first_eq (c : Dev nD) (i : S_.Idx) :
    shapeCast S_ (extractStridedSlice S1x1 ![0, 0] (outArr m c) slices_S1x2_S1x1_0_0) shapeCasts_S1x1_S_ i
      = tot0 m c 63 tLast.isLt (ix2 (0 : Fin 1) (0 : Fin 1)) := by
  have hi : i = ix0 := eq_ix0 i
  subst hi
  rw [shapeCast_apply _ shapeCasts_S1x1_S_ ix0 (ix2 (0 : Fin 1) (0 : Fin 1)) (by decide),
    extractStridedSlice_apply ![0, 0] (outArr m c) slices_S1x2_S1x1_0_0 (ix2 (0 : Fin 1) (0 : Fin 1)) (ix2 (0 : Fin 1) (0 : Fin 2))
      (fun a => by match a with | ⟨0, _⟩ => rfl | ⟨1, _⟩ => rfl)]
  unfold outArr
  exact canon2_at0 _ _

/-- Element (0, 1) likewise: the second total. -/
theorem second_eq (c : Dev nD) (i : S_.Idx) :
    shapeCast S_ (extractStridedSlice S1x1 ![0, 1] (outArr m c) slices_S1x2_S1x1_0_1) shapeCasts_S1x1_S_ i
      = tot1 m c 63 tLast.isLt (ix2 (0 : Fin 1) (0 : Fin 1)) := by
  have hi : i = ix0 := eq_ix0 i
  subst hi
  rw [shapeCast_apply _ shapeCasts_S1x1_S_ ix0 (ix2 (0 : Fin 1) (0 : Fin 1)) (by decide),
    extractStridedSlice_apply ![0, 1] (outArr m c) slices_S1x2_S1x1_0_1 (ix2 (0 : Fin 1) (0 : Fin 1)) (ix2 (0 : Fin 1) (1 : Fin 2))
      (fun a => by match a with | ⟨0, _⟩ => rfl | ⟨1, _⟩ => rfl)]
  unfold outArr
  exact canon2_at1 _ _

/-- The program's result: `kerTotal` of the four argument arrays. -/
theorem result_eq (c : Dev nD) :
    tailVal (outArr m c) = fun _ => Cert.XYLoss.kerTotal (a0 m c) (a1 m c) (a2 m c) (a3 m c) := by
  funext i
  show Ideal.div (shapeCast S_ (extractStridedSlice S1x1 ![0, 0] (outArr m c) slices_S1x2_S1x1_0_0) shapeCasts_S1x1_S_ i)
      (Ideal.ofBits .f32 0x4B800000#32)
    * shapeCast S_ (extractStridedSlice S1x1 ![0, 1] (outArr m c) slices_S1x2_S1x1_0_1) shapeCasts_S1x1_S_ i = _
  rw [first_eq, second_eq, tot0_last, tot1_last]
  rfl

/-- The run at the ideal values: the result buffer at `kerTotal`, the arguments unchanged. -/
theorem run : θ_run defs (onTc (τ := τ) (main (F := Ideal))) ⟨m, fun _ => 0, ρ⟩ fun r => ∀ c : Dev nD,
      r.2.mem ((c.tc : Thread nD τ).loc main_v6) = (fun _ => Cert.XYLoss.kerTotal (a0 m c) (a1 m c) (a2 m c) (a3 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (result_eq m c), (h c).2⟩) (Cert.KernelIdeal.Final.run m ρ)

end Cert.KernelIdeal.KerValue

end
-- ==== Proof.lean ====
/-
  The certificate of the cross-entropy loss kernel against its jnp reference.

  Both programs take a mask and a scale of shape [16, 1, 1024, 1024] and logits and targets of shape [16, 2, 1024, 1024].
  Per pixel the two logits pass through the logistic function, and the loss term is minus the targets' product with the
  log-softmax of the two results (taken with the channel maximum subtracted). The kernel walks a 16 × 4 grid of blocks of
  256 rows, keeping two running totals in scratch — the sum of the loss terms and the sum of mask · scale —, writes them
  out after the last block, and the host divides the first by the pixel count 2^24 and multiplies by the second. The
  reference takes the mean of the loss terms, multiplies every mask · scale by it, and sums.

  At the ideal values both results are extended reals. With every input a real number (the precondition), every pixel
  term is a real number, the two spellings of the log-softmax agree (a - (L + M) = (a - M) - L), a sum may be taken block
  by block, and (∑ P / c) · ∑ a = ∑ (a · (∑ P / c)) by distributivity: `Cert.XYLoss.kerTotal_eq_refTotal`.
  The kernel's value is read off its frame run (the two totals by induction over the grid points, the host tail after
  the region), the reference's off its run, operation by operation; the three frames are the runs with the values dropped;
  the idealization rewrote nothing, so `preserves` is trivial.
-/
import proofs.«155366_j63754494541943_1_alg».proof.Defs
import proofs.«155366_j63754494541943_1_alg».proof.Proof.Gen.Kernel
import proofs.«155366_j63754494541943_1_alg».proof.Proof.Gen.Kernel.Skeleton
import proofs.«155366_j63754494541943_1_alg».proof.Proof.Gen.Kernel.Launch
import proofs.«155366_j63754494541943_1_alg».proof.Proof.Gen.Kernel.Points
import proofs.«155366_j63754494541943_1_alg».proof.Proof.Gen.Kernel.Frame
import proofs.«155366_j63754494541943_1_alg».proof.Proof.Gen.KernelIdeal
import proofs.«155366_j63754494541943_1_alg».proof.Proof.Gen.KernelIdeal.Skeleton
import proofs.«155366_j63754494541943_1_alg».proof.Proof.Gen.KernelIdeal.Launch
import proofs.«155366_j63754494541943_1_alg».proof.Proof.Gen.KernelIdeal.Points
import proofs.«155366_j63754494541943_1_alg».proof.Proof.Gen.KernelIdeal.Frame
import proofs.«155366_j63754494541943_1_alg».proof.Proof.Gen.ReferenceIdeal
import proofs.«155366_j63754494541943_1_alg».proof.Proof.Gen.Pre_finite_inputs
import proofs.«155366_j63754494541943_1_alg».proof.Proof.Spec
import proofs.«155366_j63754494541943_1_alg».proof.Proof.RefRun
import proofs.«155366_j63754494541943_1_alg».proof.Proof.RefSide
import proofs.«155366_j63754494541943_1_alg».proof.Proof.Finite
import proofs.«155366_j63754494541943_1_alg».proof.Proof.KerValue
import Idealize.ShloMosaic.Adequacy
import Idealize.ShloMosaic.Init

noncomputable section

namespace Cert.Proof

open Idealize.ShloMosaic Idealize.ShloMosaic.TcCoe Idealize.SL.Sem

/-- The word-level kernel runs and leaves its arguments: the generated frame. -/
theorem frame_k [Cert.Kernel.Facts] [Cert.Pre_finite_inputs.Facts] : Cert.frame_Kernel :=
  fun m ρ _ => Cert.Kernel.Gen.frame m ρ

/-- The idealized kernel likewise. -/
theorem frame_ki [Cert.KernelIdeal.Facts] [Cert.Pre_finite_inputs.Facts] : Cert.frame_KernelIdeal :=
  fun m ρ _ => Cert.KernelIdeal.Gen.frame m ρ

/-- The reference runs and leaves its arguments: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- At the ideal values the kernel's result is `kerTotal` of its arguments and the reference's `refTotal` of arguments
    that agree; on real inputs the two totals are one extended real. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => fun _ => Cert.XYLoss.kerTotal (Cert.KernelIdeal.Sums.a0 m c) (Cert.KernelIdeal.Sums.a1 m c)
    (Cert.KernelIdeal.Sums.a2 m c) (Cert.KernelIdeal.Sums.a3 m c), Cert.KernelIdeal.KerValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v15_eq, Cert.ReferenceIdeal.RefValue.result_eq,
    (hagree c).1, (hagree c).2.1, (hagree c).2.2.1, (hagree c).2.2.2]
  obtain ⟨h0, h1, h2, h3⟩ := Cert.Pre_finite_inputs.FiniteValue.real_of_pre _ _ _ _ (hpre c)
  exact funext fun _ => (Cert.XYLoss.kerTotal_eq_refTotal _ _ _ _ h0 h1 h2 h3).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
